-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256 : Shape := ⟨3, ![16, 128, 256]⟩
abbrev S16x128x128x256 : Shape := ⟨4, ![16, 128, 128, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x128x256 : S_.BroadcastsInDim S16x128x256 (![] : Fin 0 → Fin S16x128x256.rank)
  reducesTo_S16x128x256_S_d0_1_2 : S16x128x256.ReducesTo [0, 1, 2] S_
  h_S_ : 0 < S_.numel
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x128x256 .f32) (main_arg1 : FVec F S16x128x128x256 .f32) (main_arg2 : FVec F S256x256 .f32) (main_arg3 : FVec F S256x256 .f32) (main_arg4 : FVec F S256 .f32) (main_arg5 : FVec F S256x1 .f32) (main_arg6 : FVec F S1 .f32) : IVec S_ 1 :=
  let main_v0 : FVec F S16x128x256 .f32 := Host.absf main_arg0
  let main_cst : FVec F S_ .f32 := constant S_ .f32 0x7F800000#32
  let main_v1 : FVec F S16x128x256 .f32 := broadcastInDim S16x128x256 ![] bcast_S_S16x128x256 main_cst
  let main_v2 : IVec S16x128x256 1 := cmpf .olt main_v0 main_v1
  let main_c : IVec S_ 1 := constantI S_ 1 1#1
  let main_v3 : IVec S_ 1 := (fun x v => Host.reduce IntOp.andi x v reducesTo_S16x128x256_S_d0_1_2 h_S_) main_v2 main_c
  let main_v4 : FVec F S16x128x128x256 .f32 := Host.absf main_arg1
  let main_cst_0 : FVec F S_ .f32 := constant S_ .f32 0x7F800000#32
  let main_v5 : FVec F S16x128x128x256 .f32 := broadcastInDim S16x128x128x256 ![] bcast_S_S16x128x128x256 main_cst_0
  let main_v6 : IVec S16x128x128x256 1 := cmpf .olt main_v4 main_v5
  let main_c_1 : IVec S_ 1 := constantI S_ 1 1#1
  let main_v7 : IVec S_ 1 := (fun x v => Host.reduce IntOp.andi x v reducesTo_S16x128x128x256_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16x128x256 : Shape := ⟨3, ![16, 128, 256]⟩
abbrev S16x128x128x256 : Shape := ⟨4, ![16, 128, 128, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x64x256 : Shape := ⟨3, ![1, 64, 256]⟩
abbrev S1x128x256 : Shape := ⟨3, ![1, 128, 256]⟩
abbrev S1x64x128x256 : Shape := ⟨4, ![1, 64, 128, 256]⟩
abbrev S128x256 : Shape := ⟨2, ![128, 256]⟩
abbrev S64x256 : Shape := ⟨2, ![64, 256]⟩
abbrev S1x64x32x256 : Shape := ⟨4, ![1, 64, 32, 256]⟩
abbrev S64x32x256 : Shape := ⟨3, ![64, 32, 256]⟩
abbrev S2048x256 : Shape := ⟨2, ![2048, 256]⟩
abbrev S1x256 : Shape := ⟨2, ![1, 256]⟩
abbrev S32x256 : Shape := ⟨2, ![32, 256]⟩
abbrev S1x32x256 : Shape := ⟨3, ![1, 32, 256]⟩
abbrev S64x1x256 : Shape := ⟨3, ![64, 1, 256]⟩
abbrev S64x1 : Shape := ⟨2, ![64, 1]⟩
abbrev S1x1 : Shape := ⟨2, ![1, 1]⟩

abbrev nBuf : Space → Nat
  | .hbm => 9
  | .vmem => 16
  | .smem => 0
  | _ => 0

abbrev bufTy : (tb : Table) → Fin (tcTables nBuf tb) → BufTy
  | .hbm, ⟨0, _⟩ => ⟨S16x128x256, .f32⟩
  | .hbm, ⟨1, _⟩ => ⟨S16x128x128x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x128x128x256, .f32⟩
  | .hbm, ⟨8, _⟩ => ⟨S16x128x256, .f32⟩
  | .local _ .vmem, ⟨0, _⟩ => ⟨S1x64x256, .f32⟩
  | .local _ .vmem, ⟨1, _⟩ => ⟨S1x64x256, .f32⟩
  | .local _ .vmem, ⟨2, _⟩ => ⟨S1x128x256, .f32⟩
  | .local _ .vmem, ⟨3, _⟩ => ⟨S1x128x256, .f32⟩
  | .local _ .vmem, ⟨4, _⟩ => ⟨S1x64x128x256, .f32⟩
  | .local _ .vmem, ⟨5, _⟩ => ⟨S1x64x128x256, .f32⟩
  | .local _ .vmem, ⟨6, _⟩ => ⟨S256x256, .f32⟩
  | .local _ .vmem, ⟨7, _⟩ => ⟨S256x256, .f32⟩
  | .local _ .vmem, ⟨8, _⟩ => ⟨S256, .f32⟩
  | .local _ .vmem, ⟨9, _⟩ => ⟨S256x1, .f32⟩
  | .local _ .vmem, ⟨10, _⟩ => ⟨S1, .f32⟩
  | .local _ .vmem, ⟨11, _⟩ => ⟨S1x64x128x256, .f32⟩
  | .local _ .vmem, ⟨12, _⟩ => ⟨S1x64x128x256, .f32⟩
  | .local _ .vmem, ⟨13, _⟩ => ⟨S1x64x256, .f32⟩
  | .local _ .vmem, ⟨14, _⟩ => ⟨S1x64x256, .f32⟩
  | .local _ .vmem, ⟨15, _⟩ => ⟨S128x256, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def k0_mult1 : BitVec 32 :=
  let c0_i32 : BitVec 32 := 0#32
  let c32_i32 : BitVec 32 := 32#32
  let v20 : BitVec 32 := Scalar.muli c0_i32 c32_i32
  v20
def k0_off1 (c0_i32 : BitVec 32) : Fin 4 → Nat :=
  let c0_17 : Index := 0#32
  let c0_18 : Index := 0#32
  let c32_i32 : BitVec 32 := 32#32
  let v20 : BitVec 32 := Scalar.muli c0_i32 c32_i32
  let v21 : BitVec 32 := v20
  let v22 : Index := Scalar.indexCast v21
  let c0_19 : Index := 0#32
  ![0, 0, v22.toNat, 0]
def k0_off2 (c0_i32 : BitVec 32) : Fin 2 → Nat :=
  let c32_i32 : BitVec 32 := 32#32
  let v20 : BitVec 32 := Scalar.muli c0_i32 c32_i32
  let v21 : BitVec 32 := v20
  let v32 : Index := Scalar.indexCast v21
  let c0_21 : Index := 0#32
  ![v32.toNat, 0]
def k0_off3 (c0_i32 : BitVec 32) : Fin 3 → Nat :=
  let c0_22 : Index := 0#32
  let c32_i32 : BitVec 32 := 32#32
  let v20 : BitVec 32 := Scalar.muli c0_i32 c32_i32
  let v21 : BitVec 32 := v20
  let v34 : Index := Scalar.indexCast v21
  let c0_23 : Index := 0#32
  ![0, v34.toNat, 0]
def k0_mult2 : BitVec 32 :=
  let c1_i32 : BitVec 32 := 1#32
  let c32_i32_29 : BitVec 32 := 32#32
  let v56 : BitVec 32 := Scalar.muli c1_i32 c32_i32_29
  v56
def k0_mult3 : BitVec 32 :=
  let c2_i32 : BitVec 32 := 2#32
  let c32_i32_42 : BitVec 32 := 32#32
  let v92 : BitVec 32 := Scalar.muli c2_i32 c32_i32_42
  v92
def k0_mult4 : BitVec 32 :=
  let c3_i32 : BitVec 32 := 3#32
  let c32_i32_55 : BitVec 32 := 32#32
  let v128 : BitVec 32 := Scalar.muli c3_i32 c32_i32_55
  v128
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S256_S256_0 : ∀ a, (![0] : Fin 1 → Nat) a + S256.size a ≤ S256.size a
  h_S256 : 0 < S256.numel
  inb_S1_S1_0 : ∀ a, (![0] : Fin 1 → Nat) a + S1.size a ≤ S1.size a
  h_S1 : 0 < S1.numel
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S1x64x32x256 : 0 < S1x64x32x256.numel
  shapeCasts_S1x64x32x256_S64x32x256 : S1x64x32x256.ShapeCasts S64x32x256
  shapeCasts_S64x32x256_S2048x256 : S64x32x256.ShapeCasts S2048x256
  shapeCasts_S256_S1x256 : S256.ShapeCasts S1x256
  broadcasts_S1x256_S2048x256 : S1x256.Broadcasts S2048x256
  shapeCasts_S2048x256_S64x32x256 : S2048x256.ShapeCasts S64x32x256
  h_S32x256 : 0 < S32x256.numel
  h_S1x32x256 : 0 < S1x32x256.numel
  shapeCasts_S1x32x256_S32x256 : S1x32x256.ShapeCasts S32x256
  shapeCasts_S64x256_S64x1x256 : S64x256.ShapeCasts S64x1x256
  shapeCasts_S32x256_S1x32x256 : S32x256.ShapeCasts S1x32x256
  broadcasts_S64x1x256_S64x32x256 : S64x1x256.Broadcasts S64x32x256
  broadcasts_S1x32x256_S64x32x256 : S1x32x256.Broadcasts S64x32x256
  shapeCasts_S64x32x256_S1x64x32x256 : S64x32x256.ShapeCasts S1x64x32x256
  reduces_S64x32x256_S64x256 : S64x32x256.Reduces [1] S64x256
  shapeCasts_S1_S1x1 : S1.ShapeCasts S1x1
  broadcasts_S1x1_S64x1 : S1x1.Broadcasts S64x1
  broadcasts_S64x1_S64x256 : S64x1.Broadcasts S64x256
  shapeCasts_S64x256_S1x64x256 : S64x256.ShapeCasts S1x64x256
  dot_S64x256_S256x256_S64x256_1_0_0_1_n_n_wf : DotDims.WF S64x256 S256x256 S64x256 [1] [0] [0] [1] [] []
  dot_S128x256_S256x256_S128x256_1_0_0_1_n_n_wf : DotDims.WF S128x256 S256x256 S128x256 [1] [0] [0] [1] [] []
  dot_S2048x256_S256x256_S2048x256_1_0_0_1_n_n_wf : DotDims.WF S2048x256 S256x256 S2048x256 [1] [0] [0] [1] [] []
  dot_S64x256_S256x1_S64x1_1_0_0_1_n_n_wf : DotDims.WF S64x256 S256x1 S64x1 [1] [0] [0] [1] [] []
  hrank0 : 0 < grid0.rank
  k0_mult1_dvd : 32 ∣ k0_mult1.toNat
  k0_off1_inb : ∀ (r : Fin 4), ∀ a, (k0_off1 (BitVec.ofNat 32 r.val)) a + S1x64x32x256.size a ≤ S1x64x128x256.size a
  k0_off2_inb : ∀ (r : Fin 4), ∀ a, (k0_off2 (BitVec.ofNat 32 r.val)) a + S32x256.size a ≤ S128x256.size a
  k0_off3_inb : ∀ (r : Fin 4), ∀ a, (k0_off3 (BitVec.ofNat 32 r.val)) a + S1x32x256.size a ≤ S1x128x256.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S16x128x256.size a
  hwx0_0 : ∀ i : grid0.Coords, EltTy.bits .f32 = 32 ∨ (Rect.block (s := S16x128x256) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S16x128x256.size a
  hwx0_1 : ∀ i : grid0.Coords, EltTy.bits .f32 = 32 ∨ (Rect.block (s := S16x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x256.size a ≤ S16x128x128x256.size a
  hwx0_2 : ∀ i : grid0.Coords, EltTy.bits .f32 = 32 ∨ (Rect.block (s := S16x128x128x256) S1x64x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128x256.size a ≤ S16x128x128x256.size a
  hwx0_8 : ∀ i : grid0.Coords, EltTy.bits .f32 = 32 ∨ (Rect.block (s := S16x128x128x256) S1x64x128x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x256.size a ≤ S16x128x256.size a
  hwx0_9 : ∀ i : grid0.Coords, EltTy.bits .f32 = 32 ∨ (Rect.block (s := S16x128x256) S1x64x256.size (cc0_transform_9 i) (hinb0_9 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x64x128x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x128x256 : Shape := ⟨3, ![16, 128, 256]⟩
abbrev S16x128x128x256 : Shape := ⟨4, ![16, 128, 128, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S16x128x1x256 : Shape := ⟨4, ![16, 128, 1, 256]⟩
abbrev S16x1x128x256 : Shape := ⟨4, ![16, 1, 128, 256]⟩
abbrev S1x1x1x256 : Shape := ⟨4, ![1, 1, 1, 256]⟩
abbrev S_ : Shape := ⟨0, ![]⟩
abbrev S16x128x128x1 : Shape := ⟨4, ![16, 128, 128, 1]⟩
abbrev S1x1x1x1 : Shape := ⟨4, ![1, 1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S16x128x128x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x128x1x256, .f32⟩
  | .hbm, ⟨8, _⟩ => ⟨S16x1x128x256, .f32⟩
  | .hbm, ⟨9, _⟩ => ⟨S16x128x128x256, .f32⟩
  | .hbm, ⟨10, _⟩ => ⟨S16x128x128x256, .f32⟩
  | .hbm, ⟨11, _⟩ => ⟨S16x128x128x256, .f32⟩
  | .hbm, ⟨12, _⟩ => ⟨S16x128x256, .f32⟩
  | .hbm, ⟨13, _⟩ => ⟨S16x128x1x256, .f32⟩
  | .hbm, ⟨14, _⟩ => ⟨S16x1x128x256, .f32⟩
  | .hbm, ⟨15, _⟩ => ⟨S16x128x128x256, .f32⟩
  | .hbm, ⟨16, _⟩ => ⟨S16x128x128x256, .f32⟩
  | .hbm, ⟨17, _⟩ => ⟨S16x128x128x256, .f32⟩
  | .hbm, ⟨18, _⟩ => ⟨S16x128x128x256, .f32⟩
  | .hbm, ⟨19, _⟩ => ⟨S16x128x128x256, .f32⟩
  | .hbm, ⟨20, _⟩ => ⟨S1x1x1x256, .f32⟩
  | .hbm, ⟨21, _⟩ => ⟨S16x128x128x256, .f32⟩
  | .hbm, ⟨22, _⟩ => ⟨S16x128x128x256, .f32⟩
  | .hbm, ⟨23, _⟩ => ⟨S_, .f32⟩
  | .hbm, ⟨24, _⟩ => ⟨S16x128x128x256, .f32⟩
  | .hbm, ⟨25, _⟩ => ⟨S16x128x128x256, .f32⟩
  | .hbm, ⟨26, _⟩ => ⟨S16x128x128x1, .f32⟩
  | .hbm, ⟨27, _⟩ => ⟨S1x1x1x1, .f32⟩
  | .hbm, ⟨28, _⟩ => ⟨S16x128x128x1, .f32⟩
  | .hbm, ⟨29, _⟩ => ⟨S16x128x128x1, .f32⟩
  | .hbm, ⟨30, _⟩ => ⟨S16x128x1x256, .f32⟩
  | .hbm, ⟨31, _⟩ => ⟨S16x128x128x256, .f32⟩
  | .hbm, ⟨32, _⟩ => ⟨S16x128x128x256, .f32⟩
  | .hbm, ⟨33, _⟩ => ⟨S16x128x128x256, .f32⟩
  | .hbm, ⟨34, _⟩ => ⟨S_, .f32⟩
  | .hbm, ⟨35, _⟩ => ⟨S16x128x256, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S16x128x256_S16x128x1x256_0_1_3 : S16x128x256.BroadcastsInDim S16x128x1x256 (![0, 1, 3] : Fin 3 → Fin S16x128x1x256.rank)
  bcast_S16x128x256_S16x1x128x256_0_2_3 : S16x128x256.BroadcastsInDim S16x1x128x256 (![0, 2, 3] : Fin 3 → Fin S16x1x128x256.rank)
  bcast_S16x128x1x256_S16x128x128x256_0_1_2_3 : S16x128x1x256.BroadcastsInDim S16x128x128x256 (![0, 1, 2, 3] : Fin 4 → Fin S16x128x128x256.rank)
  bcast_S16x1x128x256_S16x128x128x256_0_1_2_3 : S16x1x128x256.BroadcastsInDim S16x128x128x256 (![0, 1, 2, 3] : Fin 4 → Fin S16x128x128x256.rank)
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  bcast_S_S16x128x128x256 : S_.BroadcastsInDim S16x128x128x256 (![] : Fin 0 → Fin S16x128x128x256.rank)
  bcast_S1_S1x1x1x1_3 : S1.BroadcastsInDim S1x1x1x1 (![3] : Fin 1 → Fin S1x1x1x1.rank)
  bcast_S1x1x1x1_S16x128x128x1_0_1_2_3 : S1x1x1x1.BroadcastsInDim S16x128x128x1 (![0, 1, 2, 3] : Fin 4 → Fin S16x128x128x1.rank)
  bcast_S16x128x128x1_S16x128x128x256_0_1_2_3 : S16x128x128x1.BroadcastsInDim S16x128x128x256 (![0, 1, 2, 3] : Fin 4 → Fin S16x128x128x256.rank)
  reducesTo_S16x128x128x256_S16x128x256_d2 : S16x128x128x256.ReducesTo [2] S16x128x256
  h_S_ : 0 < S_.numel
  dot_S16x128x256_S256x256_S16x128x256_2_0_01_1_n_n_wf : DotDims.WF S16x128x256 S256x256 S16x128x256 [2] [0] [0, 1] [1] [] []
  dot_S16x128x128x256_S256x256_S16x128x128x256_3_0_012_1_n_n_wf : DotDims.WF S16x128x128x256 S256x256 S16x128x128x256 [3] [0] [0, 1, 2] [1] [] []
  dot_S16x128x128x256_S256x1_S16x128x128x1_3_0_012_1_n_n_wf : DotDims.WF S16x128x128x256 S256x1 S16x128x128x1 [3] [0] [0, 1, 2] [1] [] []

variable [Facts₀]

def dot_S16x128x256_S256x256_S16x128x256_2_0_01_1_n_n : DotDims S16x128x256 S256x256 S16x128x256 where
  lhsContracting := [2]
  rhsContracting := [0]
  lhsNonContracting := [0, 1]
  rhsNonContracting := [1]
  lhsBatch := []
  rhsBatch := []
  wf := dot_S16x128x256_S256x256_S16x128x256_2_0_01_1_n_n_wf
def dot_S16x128x128x256_S256x256_S16x128x128x256_3_0_012_1_n_n : DotDims S16x128x128x256 S256x256 S16x128x128x256 where
  lhsContracting := [3]
  rhsContracting := [0]
  lhsNonContracting := [0, 1, 2]
  rhsNonContracting := [1]
  lhsBatch := []
  rhsBatch := []
  wf := dot_S16x128x128x256_S256x256_S16x128x128x256_3_0_012_1_n_n_wf
def dot_S16x128x128x256_S256x1_S16x128x128x1_3_0_012_1_n_n : DotDims S16x128x128x256 S256x1 S16x128x128x1 where
  lhsContracting := [3]
  rhsContracting := [0]
  lhsNonContracting := [0, 1, 2]
  rhsNonContracting := [1]
  lhsBatch := []
  rhsBatch := []
  wf := dot_S16x128x128x256_S256x1_S16x128x128x1_3_0_012_1_n_n_wf

class Facts : Prop extends Facts₀ where

variable [Facts]
-- ==== Proof.Kernel.Body.lean ====
/-
  The kernel body of the pallas_call, run once on whole staging buffers (any float instance).

  One grid point (b, it) handles the 64 query rows i = 64·it … 64·it+63 of batch b against all 128 key rows j.
  The body computes, for the block X_i = inputs[b, 64·it + ·, :] and the whole batch slab X = inputs[b, ·, :],
    xw_i = X_i · W_atom,   the scratch xw = X · W_atom   (both [·, 256]),
  then in four chunks of 32 key rows (jc = 0 … 3)
    atom_pair[b, i, 32·jc + r, :] = X_i[i, :] + X[32·jc + r, :]                      (stored to the first result's block),
    h_sum  += Σ_r max (xw_i[i, :] + xw[32·jc + r, :] + (bin[b, i, 32·jc + r, :] · W_bin + b_bin), 0),
  and finally  S = h_sum · w_score + 128 · b_score  and  context = X_i * S  (stored to the second result's block).
  This file states that as one triple: the eight input buffers are handed back as found, the two result buffers and the
  scratch end at closed functions (`pairBlk`, `ctxBlk`, `xwAll`) of the input blocks.
-/
import proofs.«110807_j80393197846864_2_alg».proof.Proof.Gen.Kernel.Launch
import proofs.«110807_j80393197846864_2_alg».proof.Proof.Gen.Kernel.Skeleton
import proofs.«110807_j80393197846864_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body loads and stores through -/

abbrev rX : Rect S1x64x256 := Rect.unit (s := S1x64x256) ![0, 0, 0] S1x64x256.size (by decide)
abbrev rJ : Rect S1x128x256 := Rect.unit (s := S1x128x256) ![0, 0, 0] S1x128x256.size (by decide)
abbrev rW : Rect S256x256 := Rect.unit (s := S256x256) ![0, 0] S256x256.size (by decide)
abbrev rB : Rect S256 := Rect.unit (s := S256) ![0] S256.size (by decide)
abbrev rV : Rect S256x1 := Rect.unit (s := S256x1) ![0, 0] S256x1.size (by decide)
abbrev rC : Rect S1 := Rect.unit (s := S1) ![0] S1.size (by decide)
abbrev rS : Rect S128x256 := Rect.unit (s := S128x256) ![0, 0] S128x256.size (by decide)
/-- key rows 32·jc … 32·jc+31 of a [1, 64, 128, 256] block, jc = 0 … 3 -/
abbrev rP0 : Rect S1x64x128x256 := Rect.unit (s := S1x64x128x256) ![0, 0, 0, 0] S1x64x32x256.size (by decide)
abbrev rP1 : Rect S1x64x128x256 := Rect.unit (s := S1x64x128x256) ![0, 0, 32, 0] S1x64x32x256.size (by decide)
abbrev rP2 : Rect S1x64x128x256 := Rect.unit (s := S1x64x128x256) ![0, 0, 64, 0] S1x64x32x256.size (by decide)
abbrev rP3 : Rect S1x64x128x256 := Rect.unit (s := S1x64x128x256) ![0, 0, 96, 0] S1x64x32x256.size (by decide)
/-- the same rows of the [128, 256] scratch -/
abbrev rS0 : Rect S128x256 := Rect.unit (s := S128x256) ![0, 0] S32x256.size (by decide)
abbrev rS1 : Rect S128x256 := Rect.unit (s := S128x256) ![32, 0] S32x256.size (by decide)
abbrev rS2 : Rect S128x256 := Rect.unit (s := S128x256) ![64, 0] S32x256.size (by decide)
abbrev rS3 : Rect S128x256 := Rect.unit (s := S128x256) ![96, 0] S32x256.size (by decide)
/-- and of the [1, 128, 256] slab of `inputs` -/
abbrev rJ0 : Rect S1x128x256 := Rect.unit (s := S1x128x256) ![0, 0, 0] S1x32x256.size (by decide)
abbrev rJ1 : Rect S1x128x256 := Rect.unit (s := S1x128x256) ![0, 32, 0] S1x32x256.size (by decide)
abbrev rJ2 : Rect S1x128x256 := Rect.unit (s := S1x128x256) ![0, 64, 0] S1x32x256.size (by decide)
abbrev rJ3 : Rect S1x128x256 := Rect.unit (s := S1x128x256) ![0, 96, 0] S1x32x256.size (by decide)

/-! ## What the body computes, as functions of the eight input blocks -/

section Flow

variable (x0 : Vec F S1x64x256 .f32) (x1 : Vec F S1x128x256 .f32) (x2 : Vec F S1x64x128x256 .f32)
  (x3 x4 : Vec F S256x256 .f32) (x5 : Vec F S256 .f32) (x6 : Vec F S256x1 .f32) (x7 : Vec F S1 .f32)

/-- the query rows X_i -/
def qRows : FVec F S64x256 .f32 := k0_pay3 (View.ld x0 rX)
/-- X_i · W_atom -/
def xwQ : FVec F S64x256 .f32 := k0_pay7 (View.ld x0 rX) (View.ld x3 rW)
/-- the scratch after its one store: X · W_atom for all 128 key rows -/
def xwAll : Vec F S128x256 .f32 := View.canon [⟨rS, k0_pay8 (View.ld x3 rW) (View.ld x1 rJ)⟩]
/-- h_sum after chunk 0 -/
def acc1 : FVec F S64x256 .f32 :=
  k0_pay12 (xwQ x0 x3) (k0_pay9 (F := F)) (k0_pay10 (View.ld x4 rW) (View.ld x5 rB) (View.ld x2 rP0)) (View.ld (xwAll x1 x3) rS0)
/-- h_sum after chunk 1 -/
def acc2 : FVec F S64x256 .f32 :=
  k0_pay17 (acc1 x0 x1 x2 x3 x4 x5) (k0_pay13 (k0_pay5 (View.ld x4 rW)) (View.ld x5 rB) (View.ld x2 rP1)) (View.ld (xwAll x1 x3) rS1) (k0_pay15 (xwQ x0 x3))
/-- the relu'd hidden of chunk 2, and h_sum after it -/
def hid2 : FVec F S64x32x256 .f32 :=
  k0_pay19 (k0_pay5 (View.ld x4 rW)) (View.ld x5 rB) (xwQ x0 x3) (View.ld x2 rP2) (View.ld (xwAll x1 x3) rS2)
def acc3 : FVec F S64x256 .f32 := k0_pay22 (acc2 x0 x1 x2 x3 x4 x5) (hid2 x0 x1 x2 x3 x4 x5)
/-- the relu'd hidden of chunk 3 (its sum is added inside the last payload) -/
def hid3 : FVec F S64x32x256 .f32 :=
  k0_pay23 (k0_pay5 (View.ld x4 rW)) (View.ld x5 rB) (xwQ x0 x3) (View.ld x2 rP3) (View.ld (xwAll x1 x3) rS3)

/-- The first result's block after the body: four stores of X_i[i] + X[j], one per chunk of key rows (last first). -/
def pairBlk : Vec F S1x64x128x256 .f32 :=
  View.canon [⟨rP3, k0_pay1 (k0_pay24 (qRows x0) (View.ld x1 rJ3))⟩,
    ⟨rP2, k0_pay21 (k0_pay18 (View.ld x1 rJ2)) (k0_pay20 (qRows x0))⟩,
    ⟨rP1, k0_pay16 (qRows x0) (k0_pay14 (View.ld x1 rJ1))⟩,
    ⟨rP0, k0_pay11 (qRows x0) (View.ld x1 rJ0)⟩]

/-- The second result's block after the body: X_i * (h_sum · w_score + 128 · b_score). -/
def ctxBlk : Vec F S1x64x256 .f32 :=
  View.canon [⟨rX, k0_pay2 (qRows x0) (k0_pay6 (View.ld x6 rV)) (View.ld x7 rC) (acc3 x0 x1 x2 x3 x4 x5) (hid3 x0 x1 x2 x3 x4 x5)⟩]

end Flow

/-- The four chunk stores tile the first result's block (checked by evaluation), -/
theorem coverPair (p3 p2 p1 p0 : Vec F S1x64x32x256 .f32) (y : S1x64x128x256.Idx) :
    ∃ pc ∈ ([⟨rP3, p3⟩, ⟨rP2, p2⟩, ⟨rP1, p1⟩, ⟨rP0, p0⟩] : List (View.Piece (Elt F) S1x64x128x256 .f32)), y ∈ pc.1.set :=
  View.cover_of_tiled [⟨rP3, p3⟩, ⟨rP2, p2⟩, ⟨rP1, p1⟩, ⟨rP0, p0⟩] S1x64x32x256.size (by rfl) y
/-- the one whole store covers the second result's block, -/
theorem coverCtx (p0 : Vec F S1x64x256 .f32) (y : S1x64x256.Idx) :
    ∃ pc ∈ ([⟨rX, p0⟩] : List (View.Piece (Elt F) S1x64x256 .f32)), y ∈ pc.1.set :=
  View.cover_of_tiled [⟨rX, p0⟩] S1x64x256.size (by rfl) y
/-- and the one whole store covers the scratch. -/
theorem coverScr (p0 : Vec F S128x256 .f32) (y : S128x256.Idx) :
    ∃ pc ∈ ([⟨rS, p0⟩] : List (View.Piece (Elt F) S128x256 .f32)), y ∈ pc.1.set :=
  View.cover_of_tiled [⟨rS, p0⟩] S128x256.size (by rfl) y

set_option maxHeartbeats 4000000 in
/-- The body on whole staging memrefs: the eight inputs' at read contents `x0 … x7`, the two results' and the scratch at
    anything. It runs to the continuation holding the inputs' as they were, the results' at `pairBlk` and `ctxBlk` and
    the scratch at `xwAll`. -/
theorem sound_kernel (c : Dev nD) (E : Set ℕ) (i : grid0.Coords)
    (arg2 : Memref sig .tc .vmem S1x64x256 .f32) (harg2 : arg2.IsWhole) (arg3 : Memref sig .tc .vmem S1x128x256 .f32) (harg3 : arg3.IsWhole)
    (arg4 : Memref sig .tc .vmem S1x64x128x256 .f32) (harg4 : arg4.IsWhole) (arg5 : Memref sig .tc .vmem S256x256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S256x1 .f32) (harg8 : arg8.IsWhole) (arg9 : Memref sig .tc .vmem S1 .f32) (harg9 : arg9.IsWhole)
    (arg10 : Memref sig .tc .vmem S1x64x128x256 .f32) (harg10 : arg10.IsWhole) (arg11 : Memref sig .tc .vmem S1x64x256 .f32) (harg11 : arg11.IsWhole)
    (arg12 : Memref sig .tc .vmem S128x256 .f32) (harg12 : arg12.IsWhole)
    (x0 : Vec F S1x64x256 .f32) (x1 : Vec F S1x128x256 .f32) (x2 : Vec F S1x64x128x256 .f32) (x3 : Vec F S256x256 .f32) (x4 : Vec F S256x256 .f32)
    (x5 : Vec F S256 .f32) (x6 : Vec F S256x1 .f32) (x7 : Vec F S1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (pairBlk x0 x1)
            ∗ owns (c : Thread nD τ) arg11 fullShare (ctxBlk x0 x1 x2 x3 x4 x5 x6 x7)
            ∗ owns (c : Thread nD τ) arg12 fullShare (xwAll x1 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dS, %fS, -, HS⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (coverPair _ _ _ _)]
    rfl
  isplitl [H9]
  · iexists _; isplitr
    swap; · iexact H9
    ipureintro
    rw [View.read_writes_eq_canon _ _ _ (coverCtx _)]
    sl_unfold_run_names
    simp only [View.readCov_eq_canon']
    rfl
  · iexists _; isplitr
    swap; · iexact HS
    ipureintro
    sl_unfold_run_names
    rw [View.read_writes_eq_canon _ _ _ (coverScr _)]
    rfl

end Cert.Kernel.Hand

end
-- ==== Proof.Kernel.Run.lean ====
/-
  The launch of the pallas_call, and the frame.

  The grid has 32 points t = (b, it). `inputs` is handed to the kernel TWICE — window 0 stages the 64 query rows
  of the point, window 1 the whole 128-row slab of batch b — so the two windows hold one array between them, each at
  half the share; every other array is held whole. The proof data: each input window's buffer holds its block of the
  array at every point (fetched there or not), the two result windows' buffers hold `pairBlk` and `ctxBlk` of the
  point's input blocks, and between points the only thing kept is the scratch buffer, at contents nobody reads again.
-/
import proofs.«110807_j80393197846864_2_alg».proof.Proof.Gen.Kernel.Launch
import proofs.«110807_j80393197846864_2_alg».proof.Proof.Gen.Kernel.Skeleton
import proofs.«110807_j80393197846864_2_alg».proof.Proof.Gen.Kernel.Points
import proofs.«110807_j80393197846864_2_alg».proof.Proof.Kernel.Body
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them: as launched (@main is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pairBlk (iblk m c 0 t) (iblk m c 1 t)
    | ⟨9, _⟩ => ctxBlk (iblk m c 0 t) (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = pairBlk (iblk m c 0 t) (iblk m c 1 t) := by dsimp only [dats]
theorem after0_9 (c : Dev nD) (t : Fin cfg0.N) : (dats m 0 c).after 9 t
    = ctxBlk (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not: an unfetched point has
    the block index of the point before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- What is kept between points: the scratch buffer, whole, at some contents. -/
theorem phi_eq (c : Dev nD) :
    (Pipeline.scopedRest (Ix := Unit) (Name := ℕ) (U := UR sig nD τ) (Lvl := ℕ) (Val := Elt F) spec0 c : sProp 𝕄)
      = iprop(∃ d, owns (c : Thread nD τ) (Memref.whole cc0_scratch0) fullShare d) := by
  rw [scopedRest0_eq]
  exact (Memref.IsWhole.exists_owns_eq (c := (c.tc : Thread nD τ)) (m := Memref.whole cc0_scratch0) (Memref.isWhole_whole _) fullShare).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so `sound_kernel` applies; the scratch is taken out of
    the invariant at whatever it holds and put back at what the body stored; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.scopedRest spec0 c from rfl,
    show (dats m 0 c).Φ t.castSucc = Pipeline.scopedRest spec0 c from rfl,
    show (dats m 0 c).owesAt () t.succ = (dats m 0 c).owesAt () t.castSucc from rfl,
    after0_0, after0_1, after0_2, after0_3, after0_4, after0_5, after0_6, after0_7, after0_8, after0_9, phi_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HΦ]; · iexact HΦ
  iintro ⟨H0, H1, H2, H3, H4, H5, H6, H7, H8, H9, HS⟩
  isplitl [HS]; · iexists _; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: `inputs` split between its two windows -/

theorem split_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have h1 : (dats m 0 c).arrays ((dats m 0 c).arrAt · 0)
      = bigSep Finset.univ fun w : Fin 10 => (((cfg0.win w).arr.view.loc (c : Thread nD τ)) ↦{(dats m 0 c).share w} (dats m 0 c).arrAt w 0 : sProp 𝕄) := by
    unfold Dat.arrays
    exact bigSep_congr fun w _ => by rw [(arr_whole0 w).set_eq_univ]
  rw [h1, bigSep_W0]
  have h2 : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_arg5) ↦{fullShare} V m c main_arg5)
          ∗ (((c : Thread nD τ).loc main_arg6) ↦{fullShare} V m c main_arg6) ∗ (((c : Thread nD τ).loc main_v0_0) ↦{fullShare} V m c main_v0_0)
          ∗ (((c : Thread nD τ).loc main_v0_1) ↦{fullShare} V m c main_v0_1)) :=
    bigSep_eq_bigSepL_of_eq [main_arg0, main_arg1, main_arg2, main_arg3, main_arg4, main_arg5, main_arg6, main_v0_0, main_v0_1] (by decide) (by decide) _
  rw [h2]
  iintro ⟨H0, H1, H2, H3, H4, H5, H6, H7, H8⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

def u₀ : UR sig nD τ := initOf (Pipeline.cells cfgs cellOf_inj) (Pipeline.launchToks cfgs cellOf_inj)

/-- Every array of the kernel ends at what the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
set_option maxHeartbeats 1000000 in
/-- From any memory with zero counters every weakly fair execution of @main terminates, nothing faulting, and every
    array of the kernel ends at `arrAt … N`. -/
theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := split_arrays m)
    (X := fun _ => iprop(emp)) (Y := fun _ => iprop(emp)) (Z := fun _ => iprop(emp))
    (hX := fun c => by rw [unscopedRest0_eq]; iintro -; isplitr <;> iempintro)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by
      iintro ⟨-, -, HSI⟩; imodintro
      isplitr; · ipureintro; trivial
      iexact HSI)
    (hQ := fun _ h c w => (h c).1 w)

/-- An input array ends as launched. -/
theorem final_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The frame: @main runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c 0).trans (final_in m c 0 rfl), (h c 2).trans (final_in m c 2 rfl),
    (h c 3).trans (final_in m c 3 rfl), (h c 4).trans (final_in m c 4 rfl), (h c 5).trans (final_in m c 5 rfl),
    (h c 6).trans (final_in m c 6 rfl), (h c 7).trans (final_in m c 7 rfl)⟩) (run_main m ρ)

end Cert.Kernel.Hand

end
-- ==== Proof.KernelIdeal.Body.lean ====
/-
  The kernel body of the pallas_call, run once on whole staging buffers (any float instance).

  One grid point (b, it) handles the 64 query rows i = 64·it … 64·it+63 of batch b against all 128 key rows j.
  The body computes, for the block X_i = inputs[b, 64·it + ·, :] and the whole batch slab X = inputs[b, ·, :],
    xw_i = X_i · W_atom,   the scratch xw = X · W_atom   (both [·, 256]),
  then in four chunks of 32 key rows (jc = 0 … 3)
    atom_pair[b, i, 32·jc + r, :] = X_i[i, :] + X[32·jc + r, :]                      (stored to the first result's block),
    h_sum  += Σ_r max (xw_i[i, :] + xw[32·jc + r, :] + (bin[b, i, 32·jc + r, :] · W_bin + b_bin), 0),
  and finally  S = h_sum · w_score + 128 · b_score  and  context = X_i * S  (stored to the second result's block).
  This file states that as one triple: the eight input buffers are handed back as found, the two result buffers and the
  scratch end at closed functions (`pairBlk`, `ctxBlk`, `xwAll`) of the input blocks.
-/
import proofs.«110807_j80393197846864_2_alg».proof.Proof.Gen.KernelIdeal.Launch
import proofs.«110807_j80393197846864_2_alg».proof.Proof.Gen.KernelIdeal.Skeleton
import proofs.«110807_j80393197846864_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body loads and stores through -/

abbrev rX : Rect S1x64x256 := Rect.unit (s := S1x64x256) ![0, 0, 0] S1x64x256.size (by decide)
abbrev rJ : Rect S1x128x256 := Rect.unit (s := S1x128x256) ![0, 0, 0] S1x128x256.size (by decide)
abbrev rW : Rect S256x256 := Rect.unit (s := S256x256) ![0, 0] S256x256.size (by decide)
abbrev rB : Rect S256 := Rect.unit (s := S256) ![0] S256.size (by decide)
abbrev rV : Rect S256x1 := Rect.unit (s := S256x1) ![0, 0] S256x1.size (by decide)
abbrev rC : Rect S1 := Rect.unit (s := S1) ![0] S1.size (by decide)
abbrev rS : Rect S128x256 := Rect.unit (s := S128x256) ![0, 0] S128x256.size (by decide)
/-- key rows 32·jc … 32·jc+31 of a [1, 64, 128, 256] block, jc = 0 … 3 -/
abbrev rP0 : Rect S1x64x128x256 := Rect.unit (s := S1x64x128x256) ![0, 0, 0, 0] S1x64x32x256.size (by decide)
abbrev rP1 : Rect S1x64x128x256 := Rect.unit (s := S1x64x128x256) ![0, 0, 32, 0] S1x64x32x256.size (by decide)
abbrev rP2 : Rect S1x64x128x256 := Rect.unit (s := S1x64x128x256) ![0, 0, 64, 0] S1x64x32x256.size (by decide)
abbrev rP3 : Rect S1x64x128x256 := Rect.unit (s := S1x64x128x256) ![0, 0, 96, 0] S1x64x32x256.size (by decide)
/-- the same rows of the [128, 256] scratch -/
abbrev rS0 : Rect S128x256 := Rect.unit (s := S128x256) ![0, 0] S32x256.size (by decide)
abbrev rS1 : Rect S128x256 := Rect.unit (s := S128x256) ![32, 0] S32x256.size (by decide)
abbrev rS2 : Rect S128x256 := Rect.unit (s := S128x256) ![64, 0] S32x256.size (by decide)
abbrev rS3 : Rect S128x256 := Rect.unit (s := S128x256) ![96, 0] S32x256.size (by decide)
/-- and of the [1, 128, 256] slab of `inputs` -/
abbrev rJ0 : Rect S1x128x256 := Rect.unit (s := S1x128x256) ![0, 0, 0] S1x32x256.size (by decide)
abbrev rJ1 : Rect S1x128x256 := Rect.unit (s := S1x128x256) ![0, 32, 0] S1x32x256.size (by decide)
abbrev rJ2 : Rect S1x128x256 := Rect.unit (s := S1x128x256) ![0, 64, 0] S1x32x256.size (by decide)
abbrev rJ3 : Rect S1x128x256 := Rect.unit (s := S1x128x256) ![0, 96, 0] S1x32x256.size (by decide)

/-! ## What the body computes, as functions of the eight input blocks -/

section Flow

variable (x0 : Vec F S1x64x256 .f32) (x1 : Vec F S1x128x256 .f32) (x2 : Vec F S1x64x128x256 .f32)
  (x3 x4 : Vec F S256x256 .f32) (x5 : Vec F S256 .f32) (x6 : Vec F S256x1 .f32) (x7 : Vec F S1 .f32)

/-- the query rows X_i -/
def qRows : FVec F S64x256 .f32 := k0_pay3 (View.ld x0 rX)
/-- X_i · W_atom -/
def xwQ : FVec F S64x256 .f32 := k0_pay7 (View.ld x0 rX) (View.ld x3 rW)
/-- the scratch after its one store: X · W_atom for all 128 key rows -/
def xwAll : Vec F S128x256 .f32 := View.canon [⟨rS, k0_pay8 (View.ld x3 rW) (View.ld x1 rJ)⟩]
/-- h_sum after chunk 0 -/
def acc1 : FVec F S64x256 .f32 :=
  k0_pay12 (xwQ x0 x3) (k0_pay9 (F := F)) (k0_pay10 (View.ld x4 rW) (View.ld x5 rB) (View.ld x2 rP0)) (View.ld (xwAll x1 x3) rS0)
/-- h_sum after chunk 1 -/
def acc2 : FVec F S64x256 .f32 :=
  k0_pay17 (acc1 x0 x1 x2 x3 x4 x5) (k0_pay13 (k0_pay5 (View.ld x4 rW)) (View.ld x5 rB) (View.ld x2 rP1)) (View.ld (xwAll x1 x3) rS1) (k0_pay15 (xwQ x0 x3))
/-- the relu'd hidden of chunk 2, and h_sum after it -/
def hid2 : FVec F S64x32x256 .f32 :=
  k0_pay19 (k0_pay5 (View.ld x4 rW)) (View.ld x5 rB) (xwQ x0 x3) (View.ld x2 rP2) (View.ld (xwAll x1 x3) rS2)
def acc3 : FVec F S64x256 .f32 := k0_pay22 (acc2 x0 x1 x2 x3 x4 x5) (hid2 x0 x1 x2 x3 x4 x5)
/-- the relu'd hidden of chunk 3 (its sum is added inside the last payload) -/
def hid3 : FVec F S64x32x256 .f32 :=
  k0_pay23 (k0_pay5 (View.ld x4 rW)) (View.ld x5 rB) (xwQ x0 x3) (View.ld x2 rP3) (View.ld (xwAll x1 x3) rS3)

/-- The first result's block after the body: four stores of X_i[i] + X[j], one per chunk of key rows (last first). -/
def pairBlk : Vec F S1x64x128x256 .f32 :=
  View.canon [⟨rP3, k0_pay1 (k0_pay24 (qRows x0) (View.ld x1 rJ3))⟩,
    ⟨rP2, k0_pay21 (k0_pay18 (View.ld x1 rJ2)) (k0_pay20 (qRows x0))⟩,
    ⟨rP1, k0_pay16 (qRows x0) (k0_pay14 (View.ld x1 rJ1))⟩,
    ⟨rP0, k0_pay11 (qRows x0) (View.ld x1 rJ0)⟩]

/-- The second result's block after the body: X_i * (h_sum · w_score + 128 · b_score). -/
def ctxBlk : Vec F S1x64x256 .f32 :=
  View.canon [⟨rX, k0_pay2 (qRows x0) (k0_pay6 (View.ld x6 rV)) (View.ld x7 rC) (acc3 x0 x1 x2 x3 x4 x5) (hid3 x0 x1 x2 x3 x4 x5)⟩]

end Flow

/-- The four chunk stores tile the first result's block (checked by evaluation), -/
theorem coverPair (p3 p2 p1 p0 : Vec F S1x64x32x256 .f32) (y : S1x64x128x256.Idx) :
    ∃ pc ∈ ([⟨rP3, p3⟩, ⟨rP2, p2⟩, ⟨rP1, p1⟩, ⟨rP0, p0⟩] : List (View.Piece (Elt F) S1x64x128x256 .f32)), y ∈ pc.1.set :=
  View.cover_of_tiled [⟨rP3, p3⟩, ⟨rP2, p2⟩, ⟨rP1, p1⟩, ⟨rP0, p0⟩] S1x64x32x256.size (by rfl) y
/-- the one whole store covers the second result's block, -/
theorem coverCtx (p0 : Vec F S1x64x256 .f32) (y : S1x64x256.Idx) :
    ∃ pc ∈ ([⟨rX, p0⟩] : List (View.Piece (Elt F) S1x64x256 .f32)), y ∈ pc.1.set :=
  View.cover_of_tiled [⟨rX, p0⟩] S1x64x256.size (by rfl) y
/-- and the one whole store covers the scratch. -/
theorem coverScr (p0 : Vec F S128x256 .f32) (y : S128x256.Idx) :
    ∃ pc ∈ ([⟨rS, p0⟩] : List (View.Piece (Elt F) S128x256 .f32)), y ∈ pc.1.set :=
  View.cover_of_tiled [⟨rS, p0⟩] S128x256.size (by rfl) y

set_option maxHeartbeats 4000000 in
/-- The body on whole staging memrefs: the eight inputs' at read contents `x0 … x7`, the two results' and the scratch at
    anything. It runs to the continuation holding the inputs' as they were, the results' at `pairBlk` and `ctxBlk` and
    the scratch at `xwAll`. -/
theorem sound_kernel (c : Dev nD) (E : Set ℕ) (i : grid0.Coords)
    (arg2 : Memref sig .tc .vmem S1x64x256 .f32) (harg2 : arg2.IsWhole) (arg3 : Memref sig .tc .vmem S1x128x256 .f32) (harg3 : arg3.IsWhole)
    (arg4 : Memref sig .tc .vmem S1x64x128x256 .f32) (harg4 : arg4.IsWhole) (arg5 : Memref sig .tc .vmem S256x256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S256x1 .f32) (harg8 : arg8.IsWhole) (arg9 : Memref sig .tc .vmem S1 .f32) (harg9 : arg9.IsWhole)
    (arg10 : Memref sig .tc .vmem S1x64x128x256 .f32) (harg10 : arg10.IsWhole) (arg11 : Memref sig .tc .vmem S1x64x256 .f32) (harg11 : arg11.IsWhole)
    (arg12 : Memref sig .tc .vmem S128x256 .f32) (harg12 : arg12.IsWhole)
    (x0 : Vec F S1x64x256 .f32) (x1 : Vec F S1x128x256 .f32) (x2 : Vec F S1x64x128x256 .f32) (x3 : Vec F S256x256 .f32) (x4 : Vec F S256x256 .f32)
    (x5 : Vec F S256 .f32) (x6 : Vec F S256x1 .f32) (x7 : Vec F S1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (pairBlk x0 x1)
            ∗ owns (c : Thread nD τ) arg11 fullShare (ctxBlk x0 x1 x2 x3 x4 x5 x6 x7)
            ∗ owns (c : Thread nD τ) arg12 fullShare (xwAll x1 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dS, %fS, -, HS⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (coverPair _ _ _ _)]
    rfl
  isplitl [H9]
  · iexists _; isplitr
    swap; · iexact H9
    ipureintro
    rw [View.read_writes_eq_canon _ _ _ (coverCtx _)]
    sl_unfold_run_names
    simp only [View.readCov_eq_canon']
    rfl
  · iexists _; isplitr
    swap; · iexact HS
    ipureintro
    sl_unfold_run_names
    rw [View.read_writes_eq_canon _ _ _ (coverScr _)]
    rfl

end Cert.KernelIdeal.Hand

end
-- ==== Proof.KernelIdeal.Run.lean ====
/-
  The launch of the pallas_call, and the frame.

  The grid has 32 points t = (b, it). `inputs` is handed to the kernel TWICE — window 0 stages the 64 query rows
  of the point, window 1 the whole 128-row slab of batch b — so the two windows hold one array between them, each at
  half the share; every other array is held whole. The proof data: each input window's buffer holds its block of the
  array at every point (fetched there or not), the two result windows' buffers hold `pairBlk` and `ctxBlk` of the
  point's input blocks, and between points the only thing kept is the scratch buffer, at contents nobody reads again.
-/
import proofs.«110807_j80393197846864_2_alg».proof.Proof.Gen.KernelIdeal.Launch
import proofs.«110807_j80393197846864_2_alg».proof.Proof.Gen.KernelIdeal.Skeleton
import proofs.«110807_j80393197846864_2_alg».proof.Proof.Gen.KernelIdeal.Points
import proofs.«110807_j80393197846864_2_alg».proof.Proof.KernelIdeal.Body
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them: as launched (@main is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pairBlk (iblk m c 0 t) (iblk m c 1 t)
    | ⟨9, _⟩ => ctxBlk (iblk m c 0 t) (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = pairBlk (iblk m c 0 t) (iblk m c 1 t) := by dsimp only [dats]
theorem after0_9 (c : Dev nD) (t : Fin cfg0.N) : (dats m 0 c).after 9 t
    = ctxBlk (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not: an unfetched point has
    the block index of the point before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- What is kept between points: the scratch buffer, whole, at some contents. -/
theorem phi_eq (c : Dev nD) :
    (Pipeline.scopedRest (Ix := Unit) (Name := ℕ) (U := UR sig nD τ) (Lvl := ℕ) (Val := Elt F) spec0 c : sProp 𝕄)
      = iprop(∃ d, owns (c : Thread nD τ) (Memref.whole cc0_scratch0) fullShare d) := by
  rw [scopedRest0_eq]
  exact (Memref.IsWhole.exists_owns_eq (c := (c.tc : Thread nD τ)) (m := Memref.whole cc0_scratch0) (Memref.isWhole_whole _) fullShare).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so `sound_kernel` applies; the scratch is taken out of
    the invariant at whatever it holds and put back at what the body stored; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.scopedRest spec0 c from rfl,
    show (dats m 0 c).Φ t.castSucc = Pipeline.scopedRest spec0 c from rfl,
    show (dats m 0 c).owesAt () t.succ = (dats m 0 c).owesAt () t.castSucc from rfl,
    after0_0, after0_1, after0_2, after0_3, after0_4, after0_5, after0_6, after0_7, after0_8, after0_9, phi_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HΦ]; · iexact HΦ
  iintro ⟨H0, H1, H2, H3, H4, H5, H6, H7, H8, H9, HS⟩
  isplitl [HS]; · iexists _; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: `inputs` split between its two windows -/

theorem split_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have h1 : (dats m 0 c).arrays ((dats m 0 c).arrAt · 0)
      = bigSep Finset.univ fun w : Fin 10 => (((cfg0.win w).arr.view.loc (c : Thread nD τ)) ↦{(dats m 0 c).share w} (dats m 0 c).arrAt w 0 : sProp 𝕄) := by
    unfold Dat.arrays
    exact bigSep_congr fun w _ => by rw [(arr_whole0 w).set_eq_univ]
  rw [h1, bigSep_W0]
  have h2 : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_arg5) ↦{fullShare} V m c main_arg5)
          ∗ (((c : Thread nD τ).loc main_arg6) ↦{fullShare} V m c main_arg6) ∗ (((c : Thread nD τ).loc main_v0_0) ↦{fullShare} V m c main_v0_0)
          ∗ (((c : Thread nD τ).loc main_v0_1) ↦{fullShare} V m c main_v0_1)) :=
    bigSep_eq_bigSepL_of_eq [main_arg0, main_arg1, main_arg2, main_arg3, main_arg4, main_arg5, main_arg6, main_v0_0, main_v0_1] (by decide) (by decide) _
  rw [h2]
  iintro ⟨H0, H1, H2, H3, H4, H5, H6, H7, H8⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

def u₀ : UR sig nD τ := initOf (Pipeline.cells cfgs cellOf_inj) (Pipeline.launchToks cfgs cellOf_inj)

/-- Every array of the kernel ends at what the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
set_option maxHeartbeats 1000000 in
/-- From any memory with zero counters every weakly fair execution of @main terminates, nothing faulting, and every
    array of the kernel ends at `arrAt … N`. -/
theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := split_arrays m)
    (X := fun _ => iprop(emp)) (Y := fun _ => iprop(emp)) (Z := fun _ => iprop(emp))
    (hX := fun c => by rw [unscopedRest0_eq]; iintro -; isplitr <;> iempintro)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by
      iintro ⟨-, -, HSI⟩; imodintro
      isplitr; · ipureintro; trivial
      iexact HSI)
    (hQ := fun _ h c w => (h c).1 w)

/-- An input array ends as launched. -/
theorem final_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The frame: @main runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c 0).trans (final_in m c 0 rfl), (h c 2).trans (final_in m c 2 rfl),
    (h c 3).trans (final_in m c 3 rfl), (h c 4).trans (final_in m c 4 rfl), (h c 5).trans (final_in m c 5 rfl),
    (h c 6).trans (final_in m c 6 rfl), (h c 7).trans (final_in m c 7 rfl)⟩) (run_main m ρ)

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibFinite.lean ====
/-
  Finiteness of arrays of extended reals, and its closure under the array operations.

  An extended real is FINITE when it is the coercion of a real. An array (a function into the
  extended reals) is finite when every entry is. Sums, differences, products and maxima of finite
  values are finite; a quotient by a nonzero finite value is finite; the reciprocal square root of a
  positive finite value is finite and positive; a finite sum of finite values is finite. Every
  re-indexing of an array (broadcast, reshape, slice, transpose, gather) reads entries of its
  operand, so it preserves finiteness whatever the index map. A scatter-add, a reduction and a
  contraction are finite sums of finite values (and products of them).

  Beside finiteness the file carries a LOWER BOUND (`IsFinGe c`: every entry a real `≥ c`) and
  POSITIVITY (`IsFinPos`): a scatter-add of nonnegative updates onto entries `≥ c` stays `≥ c`, so
  "zeros plus ones, plus one" is `≥ 1`, its reciprocal square root is finite and positive, and a
  variance `≥ 0` plus a positive constant is positive.
-/
import Idealize.ShloMosaic.PureOps.Ideal
import Idealize.ShloMosaic.PureOps.Ideal.Laws

namespace Cert.LibFinite

open Idealize.ShloMosaic
open scoped BigOperators

/-! ### One value -/

/-- The extended real `x` is a real. -/
def IsReal (x : EReal) : Prop := ∃ r : ℝ, x = (r : EReal)

/-- The extended real `x` is a real that is at least `c`. -/
def IsRealGe (c : ℝ) (x : EReal) : Prop := ∃ r : ℝ, c ≤ r ∧ x = (r : EReal)

/-- The extended real `x` is a positive real. -/
def IsRealPos (x : EReal) : Prop := ∃ r : ℝ, 0 < r ∧ x = (r : EReal)

theorem isReal_coe (r : ℝ) : IsReal (r : EReal) := ⟨r, rfl⟩
theorem isReal_zero : IsReal 0 := ⟨0, rfl⟩
theorem isReal_one : IsReal 1 := ⟨1, rfl⟩

theorem IsRealGe.isReal {c : ℝ} {x : EReal} (h : IsRealGe c x) : IsReal x :=
  let ⟨r, _, hr⟩ := h; ⟨r, hr⟩
theorem IsRealPos.isReal {x : EReal} (h : IsRealPos x) : IsReal x :=
  let ⟨r, _, hr⟩ := h; ⟨r, hr⟩
theorem IsRealGe.mono {c c' : ℝ} {x : EReal} (hc : c' ≤ c) (h : IsRealGe c x) : IsRealGe c' x :=
  let ⟨r, h1, hr⟩ := h; ⟨r, hc.trans h1, hr⟩
theorem IsRealGe.pos {c : ℝ} {x : EReal} (hc : 0 < c) (h : IsRealGe c x) : IsRealPos x :=
  let ⟨r, h1, hr⟩ := h; ⟨r, hc.trans_le h1, hr⟩
theorem IsRealPos.ge {x : EReal} (h : IsRealPos x) : IsRealGe 0 x :=
  let ⟨r, h1, hr⟩ := h; ⟨r, h1.le, hr⟩
theorem IsRealPos.ne_zero {x : EReal} (h : IsRealPos x) : ∃ r : ℝ, r ≠ 0 ∧ x = (r : EReal) :=
  let ⟨r, h1, hr⟩ := h; ⟨r, h1.ne', hr⟩
theorem isRealGe_coe {c r : ℝ} (h : c ≤ r) : IsRealGe c (r : EReal) := ⟨r, h, rfl⟩
theorem isRealPos_coe {r : ℝ} (h : 0 < r) : IsRealPos (r : EReal) := ⟨r, h, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem coe_max (a b : ℝ) : max (a : EReal) (b : EReal) = ((max a b : ℝ) : EReal) :=
  (EReal.coe_strictMono.monotone.map_max).symm
theorem IsReal.max {x y : EReal} (hx : IsReal x) (hy : IsReal y) : IsReal (max x y) := by
  obtain ⟨a, rfl⟩ := hx; obtain ⟨b, rfl⟩ := hy; exact ⟨_, coe_max a b⟩
/-- The ideal quotient by a nonzero real is the real quotient. -/
theorem div_coe_coe {c : ℝ} (hc : c ≠ 0) (a : ℝ) : Ideal.div (a : EReal) (c : EReal) = ((a / c : ℝ) : EReal) := by
  rw [Ideal.div_coe hc, ← EReal.coe_mul, mul_one_div]
theorem IsReal.div {x y : EReal} (hx : IsReal x) (hy : ∃ c : ℝ, c ≠ 0 ∧ y = (c : EReal)) : IsReal (Ideal.div x y) := by
  obtain ⟨a, rfl⟩ := hx; obtain ⟨c, hc, rfl⟩ := hy; exact ⟨_, div_coe_coe hc a⟩

theorem IsRealGe.add {c d : ℝ} {x y : EReal} (hx : IsRealGe c x) (hy : IsRealGe d y) : IsRealGe (c + d) (x + y) := by
  obtain ⟨a, ha, rfl⟩ := hx; obtain ⟨b, hb, rfl⟩ := hy
  exact ⟨a + b, add_le_add ha hb, (EReal.coe_add a b).symm⟩
/-- Adding a nonnegative real keeps a lower bound. -/
theorem IsRealGe.add_nonneg {c : ℝ} {x y : EReal} (hx : IsRealGe c x) (hy : IsRealGe 0 y) : IsRealGe c (x + y) := by
  obtain ⟨a, ha, rfl⟩ := hx; obtain ⟨b, hb, rfl⟩ := hy
  exact ⟨a + b, le_add_of_le_of_nonneg ha hb, (EReal.coe_add a b).symm⟩
theorem IsRealGe.mul_nonneg {x y : EReal} (hx : IsRealGe 0 x) (hy : IsRealGe 0 y) : IsRealGe 0 (x * y) := by
  obtain ⟨a, ha, rfl⟩ := hx; obtain ⟨b, hb, rfl⟩ := hy
  exact ⟨a * b, _root_.mul_nonneg ha hb, (EReal.coe_mul a b).symm⟩
theorem IsRealGe.max_left {c : ℝ} {x y : EReal} (hx : IsRealGe c x) (hy : IsReal y) : IsRealGe c (max x y) := by
  obtain ⟨a, ha, rfl⟩ := hx; obtain ⟨b, rfl⟩ := hy
  exact ⟨_, ha.trans (le_max_left a b), coe_max a b⟩
theorem IsRealGe.max_right {c : ℝ} {x y : EReal} (hx : IsReal x) (hy : IsRealGe c y) : IsRealGe c (max x y) := by
  obtain ⟨a, rfl⟩ := hx; obtain ⟨b, hb, rfl⟩ := hy
  exact ⟨_, hb.trans (le_max_right a b), coe_max a b⟩
theorem IsRealPos.add_ge {x y : EReal} (hx : IsRealGe 0 x) (hy : IsRealPos y) : IsRealPos (x + y) := by
  obtain ⟨a, ha, rfl⟩ := hx; obtain ⟨b, hb, rfl⟩ := hy
  exact ⟨a + b, add_pos_of_nonneg_of_pos ha hb, (EReal.coe_add a b).symm⟩
theorem IsRealPos.mul {x y : EReal} (hx : IsRealPos x) (hy : IsRealPos y) : IsRealPos (x * y) := by
  obtain ⟨a, ha, rfl⟩ := hx; obtain ⟨b, hb, rfl⟩ := hy
  exact ⟨a * b, mul_pos ha hb, (EReal.coe_mul a b).symm⟩

/-- The ideal reciprocal square root at a positive real: `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem IsRealPos.rsqrt {x : EReal} (hx : IsRealPos x) : IsRealPos (Ideal.rsqrt x) := by
  obtain ⟨r, hr, rfl⟩ := hx
  exact ⟨_, inv_pos.mpr (Real.sqrt_pos.mpr hr), rsqrt_coe_pos hr⟩

/-- A finite sum of reals is a real. -/
theorem IsReal.sum {ι : Type*} (s : Finset ι) (f : ι → EReal) (h : ∀ i ∈ s, IsReal (f i)) : IsReal (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-- A finite sum of nonnegative reals is a nonnegative real. -/
theorem IsRealGe.sum {ι : Type*} (s : Finset ι) (f : ι → EReal) (h : ∀ i ∈ s, IsRealGe 0 (f i)) :
    IsRealGe 0 (∑ i ∈ s, f i) := by
  classical
  revert h
  refine Finset.induction_on s (fun _ => ⟨0, le_refl 0, by simp⟩) ?_
  intro a s ha ih h
  rw [Finset.sum_insert ha]
  exact (h a (Finset.mem_insert_self a s)).add_nonneg (ih fun i hi => h i (Finset.mem_insert_of_mem hi))

/-! ### Arrays -/

/-- Every entry of the array is a real. -/
def IsFin {ι : Type*} (v : ι → EReal) : Prop := ∀ i, IsReal (v i)
/-- Every entry of the array is a real that is at least `c`. -/
def IsFinGe {ι : Type*} (c : ℝ) (v : ι → EReal) : Prop := ∀ i, IsRealGe c (v i)
/-- Every entry of the array is a positive real. -/
def IsFinPos {ι : Type*} (v : ι → EReal) : Prop := ∀ i, IsRealPos (v i)

section Generic
variable {ι κ : Type*} {v : ι → EReal}

theorem IsFin.apply (h : IsFin v) (i : ι) : ∃ r : ℝ, v i = (r : EReal) := h i
theorem IsFinGe.isFin {c : ℝ} (h : IsFinGe c v) : IsFin v := fun i => (h i).isReal
theorem IsFinPos.isFin (h : IsFinPos v) : IsFin v := fun i => (h i).isReal
theorem IsFinGe.mono {c c' : ℝ} (hc : c' ≤ c) (h : IsFinGe c v) : IsFinGe c' v := fun i => (h i).mono hc
theorem IsFinGe.pos {c : ℝ} (hc : 0 < c) (h : IsFinGe c v) : IsFinPos v := fun i => (h i).pos hc
theorem IsFinPos.ge (h : IsFinPos v) : IsFinGe 0 v := fun i => (h i).ge
/-- A positive array is a legal divisor: every entry a nonzero real. -/
theorem IsFinPos.ne_zero (h : IsFinPos v) : ∀ i, ∃ r : ℝ, r ≠ 0 ∧ v i = (r : EReal) := fun i => (h i).ne_zero

/-- Any re-indexing of a finite array is finite. -/
theorem IsFin.comp (h : IsFin v) (f : κ → ι) : IsFin (fun j => v (f j)) := fun j => h (f j)
theorem IsFinGe.comp {c : ℝ} (h : IsFinGe c v) (f : κ → ι) : IsFinGe c (fun j => v (f j)) := fun j => h (f j)
theorem IsFinPos.comp (h : IsFinPos v) (f : κ → ι) : IsFinPos (fun j => v (f j)) := fun j => h (f j)

theorem isFin_const (r : ℝ) : IsFin (fun _ : ι => (r : EReal)) := fun _ => isReal_coe r
theorem isFinGe_const {c r : ℝ} (h : c ≤ r) : IsFinGe c (fun _ : ι => (r : EReal)) := fun _ => isRealGe_coe h
theorem isFinPos_const {r : ℝ} (h : 0 < r) : IsFinPos (fun _ : ι => (r : EReal)) := fun _ => isRealPos_coe h
end Generic

/-! ### The float constants of the programs -/

theorem ofBits_zero : Ideal.ofBits .f32 0x00000000#32 = ((0 : ℝ) : EReal) := by
  rw [Ideal.ofBits_zero_f32, EReal.coe_zero]
theorem ofBits_one : Ideal.ofBits .f32 0x3F800000#32 = ((1 : ℝ) : EReal) := by
  simp [Ideal.ofBits, Ideal.ieee, -EReal.coe_mul]; norm_num
theorem ofBits_100000 : Ideal.ofBits .f32 0x47C35000#32 = ((100000 : ℝ) : EReal) := by
  simp [Ideal.ofBits, Ideal.ieee, -EReal.coe_mul]; norm_num

/-- The pattern of `1e-5` rounded to binary32: the positive real `10995116 / 2^40`. -/
theorem ofBits_eps : Ideal.ofBits .f32 0x3727C5AC#32 = ((10995116 / 1099511627776 : ℝ) : EReal) := by
  simp [Ideal.ofBits, Ideal.ieee, -EReal.coe_mul]; norm_num

section Ops
variable {s t : Shape} {φ : FTy}

/-! ### Pointwise operations -/

theorem isFin_addf {x y : FVec Ideal s φ} (hx : IsFin x) (hy : IsFin y) : IsFin (addf x y) :=
  fun i => (hx i).add (hy i)
theorem isFin_subf {x y : FVec Ideal s φ} (hx : IsFin x) (hy : IsFin y) : IsFin (subf x y) :=
  fun i => (hx i).sub (hy i)
theorem isFin_mulf {x y : FVec Ideal s φ} (hx : IsFin x) (hy : IsFin y) : IsFin (mulf x y) :=
  fun i => (hx i).mul (hy i)
theorem isFin_maximumf {x y : FVec Ideal s φ} (hx : IsFin x) (hy : IsFin y) : IsFin (maximumf x y) :=
  fun i => (hx i).max (hy i)
/-- The host's quotient by an array of nonzero reals. -/
theorem isFin_hostDivf {x y : FVec Ideal s φ} (hx : IsFin x) (hy : ∀ i, ∃ c : ℝ, c ≠ 0 ∧ y i = (c : EReal)) :
    IsFin (Host.divf x y) :=
  fun i => (hx i).div (hy i)
theorem isFin_divf {x y : FVec Ideal s φ} (hx : IsFin x) (hy : ∀ i, ∃ c : ℝ, c ≠ 0 ∧ y i = (c : EReal)) :
    IsFin (divf x y) :=
  fun i => (hx i).div (hy i)

theorem isFinGe_addf {c d : ℝ} {x y : FVec Ideal s φ} (hx : IsFinGe c x) (hy : IsFinGe d y) : IsFinGe (c + d) (addf x y) :=
  fun i => (hx i).add (hy i)
theorem isFinGe_mulf_nonneg {x y : FVec Ideal s φ} (hx : IsFinGe 0 x) (hy : IsFinGe 0 y) : IsFinGe 0 (mulf x y) :=
  fun i => (hx i).mul_nonneg (hy i)
theorem isFinGe_maximumf_left {c : ℝ} {x y : FVec Ideal s φ} (hx : IsFinGe c x) (hy : IsFin y) : IsFinGe c (maximumf x y) :=
  fun i => (hx i).max_left (hy i)
theorem isFinGe_maximumf_right {c : ℝ} {x y : FVec Ideal s φ} (hx : IsFin x) (hy : IsFinGe c y) : IsFinGe c (maximumf x y) :=
  fun i => IsRealGe.max_right (hx i) (hy i)
/-- A nonnegative array plus a positive one is positive (a variance plus its `ε`). -/
theorem isFinPos_addf {x y : FVec Ideal s φ} (hx : IsFinGe 0 x) (hy : IsFinPos y) : IsFinPos (addf x y) :=
  fun i => IsRealPos.add_ge (hx i) (hy i)
theorem isFinPos_mulf {x y : FVec Ideal s φ} (hx : IsFinPos x) (hy : IsFinPos y) : IsFinPos (mulf x y) :=
  fun i => (hx i).mul (hy i)

/-- The host's reciprocal square root of a positive array is positive, hence finite. -/
theorem isFinPos_hostRsqrt {x : FVec Ideal s φ} (hx : IsFinPos x) : IsFinPos (Host.rsqrt x) :=
  fun i => (hx i).rsqrt
theorem isFin_hostRsqrt {x : FVec Ideal s φ} (hx : IsFinPos x) : IsFin (Host.rsqrt x) :=
  (isFinPos_hostRsqrt hx).isFin
/-- A kernel's reciprocal square root likewise. -/
theorem isFinPos_rsqrt {x : FVec Ideal s φ} (hx : IsFinPos x) : IsFinPos (rsqrt x) :=
  fun i => (hx i).rsqrt
theorem isFin_rsqrt {x : FVec Ideal s φ} (hx : IsFinPos x) : IsFin (rsqrt x) :=
  (isFinPos_rsqrt hx).isFin

/-- A select between two finite arrays is finite, whatever the mask. -/
theorem isFin_select {c : IVec s 1} {a b : FVec Ideal s φ} (ha : IsFin a) (hb : IsFin b) : IsFin (select c a b) := by
  intro i
  show IsReal (if c i = 1 then a i else b i)
  split_ifs
  · exact ha i
  · exact hb i
/-- Where the mask is set everywhere the select is its first branch. -/
theorem select_of_one {α : Type} {c : IVec s 1} (hc : ∀ i, c i = 1) (a b : s.Idx → α) : select c a b = a := by
  funext i
  show (if c i = 1 then a i else b i) = a i
  rw [if_pos (hc i)]
/-- An integer array converted to floats is finite. -/
theorem isFin_sitofp {w : Nat} (x : IVec s w) : IsFin (sitofp (F := Ideal) φ x) :=
  fun i => ⟨((x i).toInt : ℝ), rfl⟩
theorem sitofp_apply {w : Nat} (x : IVec s w) (i : s.Idx) :
    sitofp (F := Ideal) φ x i = (((x i).toInt : ℝ) : EReal) := rfl
/-- The ordered "greater than" comparison of two extended reals answers `1` exactly when it holds. -/
theorem cmpf_ogt_of_lt {x y : Ideal φ} (h : y < x) : FloatOps.cmpf .ogt x y = 1#1 := by
  show BitVec.ofBool (decide (y < x)) = 1#1
  simp [h]

/-! ### Constants and broadcasts -/

theorem constant_zero : (constant s .f32 0x00000000#32 : FVec Ideal s .f32) = fun _ => ((0 : ℝ) : EReal) :=
  funext fun _ => ofBits_zero
theorem constant_one : (constant s .f32 0x3F800000#32 : FVec Ideal s .f32) = fun _ => ((1 : ℝ) : EReal) :=
  funext fun _ => ofBits_one
theorem constant_100000 : (constant s .f32 0x47C35000#32 : FVec Ideal s .f32) = fun _ => ((100000 : ℝ) : EReal) :=
  funext fun _ => ofBits_100000
theorem isFin_constant_zero : IsFin (constant s .f32 0x00000000#32 : FVec Ideal s .f32) := by
  rw [constant_zero]; exact isFin_const 0
theorem isFinGe_constant_zero : IsFinGe 0 (constant s .f32 0x00000000#32 : FVec Ideal s .f32) := by
  rw [constant_zero]; exact isFinGe_const (le_refl 0)
theorem isFin_constant_one : IsFin (constant s .f32 0x3F800000#32 : FVec Ideal s .f32) := by
  rw [constant_one]; exact isFin_const 1
theorem isFinGe_constant_one : IsFinGe 1 (constant s .f32 0x3F800000#32 : FVec Ideal s .f32) := by
  rw [constant_one]; exact isFinGe_const (le_refl 1)
theorem isFin_constant_100000 : IsFin (constant s .f32 0x47C35000#32 : FVec Ideal s .f32) := by
  rw [constant_100000]; exact isFin_const _
theorem isFinPos_constant_100000 : IsFinPos (constant s .f32 0x47C35000#32 : FVec Ideal s .f32) := by
  rw [constant_100000]; exact isFinPos_const (by norm_num)

theorem constant_eps :
    (constant s .f32 0x3727C5AC#32 : FVec Ideal s .f32) = fun _ => ((10995116 / 1099511627776 : ℝ) : EReal) :=
  funext fun _ => ofBits_eps
theorem isFinPos_constant_eps : IsFinPos (constant s .f32 0x3727C5AC#32 : FVec Ideal s .f32) := by
  rw [constant_eps]; exact isFinPos_const (by norm_num)
theorem isFin_constant_eps : IsFin (constant s .f32 0x3727C5AC#32 : FVec Ideal s .f32) :=
  isFinPos_constant_eps.isFin
theorem isFinPos_constant_one : IsFinPos (constant s .f32 0x3F800000#32 : FVec Ideal s .f32) :=
  isFinGe_constant_one.pos one_pos

/-! ### Re-indexings: each reads entries of its operand -/

theorem isFin_broadcastInDim {x : s.Idx → EReal} (hx : IsFin x) (dims : Fin s.rank → Fin t.rank)
    (h : s.BroadcastsInDim t dims) : IsFin (broadcastInDim t dims h x) := fun _ => hx _
theorem isFinGe_broadcastInDim {c : ℝ} {x : s.Idx → EReal} (hx : IsFinGe c x) (dims : Fin s.rank → Fin t.rank)
    (h : s.BroadcastsInDim t dims) : IsFinGe c (broadcastInDim t dims h x) := fun _ => hx _
theorem isFinPos_broadcastInDim {x : s.Idx → EReal} (hx : IsFinPos x) (dims : Fin s.rank → Fin t.rank)
    (h : s.BroadcastsInDim t dims) : IsFinPos (broadcastInDim t dims h x) := fun _ => hx _
theorem isFin_shapeCast {x : s.Idx → EReal} (hx : IsFin x) (h : s.ShapeCasts t) : IsFin (shapeCast t x h) := fun _ => hx _
theorem isFinGe_shapeCast {c : ℝ} {x : s.Idx → EReal} (hx : IsFinGe c x) (h : s.ShapeCasts t) :
    IsFinGe c (shapeCast t x h) := fun _ => hx _
theorem isFinPos_shapeCast {x : s.Idx → EReal} (hx : IsFinPos x) (h : s.ShapeCasts t) :
    IsFinPos (shapeCast t x h) := fun _ => hx _
theorem isFin_extractStridedSlice {x : s.Idx → EReal} (hx : IsFin x) (off : Fin s.rank → Nat) (h : s.Slices off t) :
    IsFin (extractStridedSlice t off x h) := fun _ => hx _
theorem isFin_transpose {x : s.Idx → EReal} (hx : IsFin x) (perm : List (Fin s.rank)) (h : s.Transposes perm t) :
    IsFin (transpose t perm x h) := fun _ => hx _
theorem isFin_broadcast (t : Shape) {x : EReal} (hx : IsReal x) : IsFin (broadcast t x) := fun _ => hx
theorem isFin_broadcastTo {x : s.Idx → EReal} (hx : IsFin x) (h : s.Broadcasts t) : IsFin (broadcastTo t x h) := fun _ => hx _

/-- A gather reads an entry of its operand at every result index, whatever the integer indices are
    (they are read signed and clamped into range): a gather of a finite array is finite. -/
theorem isFin_hostGather {si : Shape} {w : Nat} (d : GatherDims s si t) {x : s.Idx → EReal} (hx : IsFin x) (idx : IVec si w) :
    IsFin (Host.gather d x idx) := fun _ => hx _
theorem isFinPos_hostGather {si : Shape} {w : Nat} (d : GatherDims s si t) {x : s.Idx → EReal} (hx : IsFinPos x)
    (idx : IVec si w) : IsFinPos (Host.gather d x idx) := fun _ => hx _
theorem isFinGe_hostGather {c : ℝ} {si : Shape} {w : Nat} (d : GatherDims s si t) {x : s.Idx → EReal} (hx : IsFinGe c x)
    (idx : IVec si w) : IsFinGe c (Host.gather d x idx) := fun _ => hx _

/-! ### Sums: reductions, contractions, scatter-add -/

/-- The host's sum over some axes: the initial value plus a finite sum of entries. -/
theorem isFin_hostReduceAdd {u : Shape} {axes : List (Fin s.rank)} {x : FVec Ideal s φ} {init : u.Idx → Ideal φ}
    (hx : IsFin x) (hinit : IsFin init) (h : s.ReducesTo axes t) (hu : 0 < u.numel) :
    IsFin (Host.reduceAdd x init h hu) := by
  intro j
  show IsReal (Ideal.hostReduceAdd h x (init (Shape.Idx.first hu)) j)
  unfold Ideal.hostReduceAdd
  exact (hinit _).add (IsReal.sum _ _ fun i _ => hx i)

/-- The host's sum over ONE axis from the zero constant, as the programs spell it: at each reduced index the
    `Fin`-indexed sum over that axis's coordinates (the form the variance lemmas consume). -/
theorem hostReduceAdd_constant_zero_single {u : Shape} {a : Fin s.rank} (x : FVec Ideal s .f32)
    (h' : s.ReducesTo [a] t) (h : s.Reduces [a] t) (hu : 0 < u.numel) (j : t.Idx) :
    Host.reduceAdd x (constant u .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-- A kernel's sum over some axes. -/
theorem isFin_multiReduction_add {axes : List (Fin s.rank)} {x : FVec Ideal s φ} (hx : IsFin x) (acc : BitVec φ.bits)
    (h : s.Reduces axes t) (hφ : FKind.Formats φ) (hacc : acc = FKind.add.neutral φ hφ) :
    IsFin (multiReduction .add axes t x acc h hφ hacc) := by
  intro j
  show IsReal (Ideal.reduceAdd h x j)
  unfold Ideal.reduceAdd
  exact IsReal.sum _ _ fun i _ => hx i

/-- The host's contraction of two finite arrays is finite. -/
theorem isFin_hostDotGeneral {sl sr so : Shape} {φ₁ φ₂ : FTy} (d : DotDims sl sr so) (prec : Option ContractPrecision)
    {l : FVec Ideal sl φ₁} {r : FVec Ideal sr φ₂} (hl : IsFin l) (hr : IsFin r) : IsFin (Host.dotGeneral d prec l r) := by
  intro j
  show IsReal (FloatOps.dotGeneral d prec .single l r j)
  rw [Ideal.dotGeneral_apply]
  exact IsReal.sum _ _ fun k _ => (hl _).mul (hr _)

/-- A kernel's matrix product of finite arrays onto a finite accumulator is finite. -/
theorem isFin_matmul {sl sr so : Shape} {φ₁ φ₂ : FTy} (d : DotDims sl sr so) (prec : Option ContractPrecision)
    {l : FVec Ideal sl φ₁} {r : FVec Ideal sr φ₂} {acc : FVec Ideal so .f32} (hl : IsFin l) (hr : IsFin r) (hacc : IsFin acc) :
    IsFin (matmul d prec l r acc) := by
  intro j
  show IsReal (FloatOps.matmul d prec l r acc j)
  rw [Ideal.matmul_apply]
  exact (hacc j).add (IsReal.sum _ _ fun k _ => (hl _).mul (hr _))

/-- The host's accumulating scatter: each operand entry plus a finite sum of update entries. -/
theorem isFin_hostScatterAdd {si su : Shape} {w : Nat} (d : ScatterDims s si su) {x : FVec Ideal s φ} (idx : IVec si w)
    {upd : FVec Ideal su φ} (hx : IsFin x) (hupd : IsFin upd) : IsFin (Host.scatterAdd d x idx upd) := by
  intro i
  show IsReal (Ideal.hostScatterAdd d x idx upd i)
  unfold Ideal.hostScatterAdd
  exact (hx i).add (IsReal.sum _ _ fun j _ => hupd j)

/-- Nonnegative updates keep a lower bound: entries `≥ c` stay `≥ c`. -/
theorem isFinGe_hostScatterAdd {c : ℝ} {si su : Shape} {w : Nat} (d : ScatterDims s si su) {x : FVec Ideal s φ}
    (idx : IVec si w) {upd : FVec Ideal su φ} (hx : IsFinGe c x) (hupd : IsFinGe 0 upd) :
    IsFinGe c (Host.scatterAdd d x idx upd) := by
  intro i
  show IsRealGe c (Ideal.hostScatterAdd d x idx upd i)
  unfold Ideal.hostScatterAdd
  exact (hx i).add_nonneg (IsRealGe.sum _ _ fun j _ => hupd j)

/-- Zeros, plus a scatter of ones, plus one: every entry is a real `≥ 1`, so the reciprocal square root of the
    array is finite and positive. -/
theorem isFinGe_one_of_scatter_ones {si su : Shape} {w : Nat} (d : ScatterDims s si su) {x one : FVec Ideal s φ}
    (idx : IVec si w) {upd : FVec Ideal su φ} (hx : IsFinGe 0 x) (hupd : IsFinGe 0 upd) (hone : IsFinGe 1 one) :
    IsFinGe 1 (addf (Host.scatterAdd d x idx upd) one) := by
  have := isFinGe_addf (isFinGe_hostScatterAdd d idx hx hupd) hone
  rwa [zero_add] at this

/-! ### The tail of the two-pass variance: its divisor and its guard -/

/-- The divisor `100000 - float(0)`: the real `100000` at every index. -/
theorem subf_100000_sitofp_zero :
    (subf (constant s .f32 0x47C35000#32) (sitofp .f32 (constantI s 32 0#32)) : FVec Ideal s .f32)
      = fun _ => ((100000 : ℝ) : EReal) := by
  funext i
  show Ideal.ofBits .f32 0x47C35000#32 - (((0#32 : BitVec 32).toInt : ℝ) : EReal) = _
  rw [ofBits_100000]
  simp

/-- Where the second array is below the first everywhere, the ordered "greater than" mask is set everywhere. -/
theorem cmpf_ogt_eq_one {x y : FVec Ideal s φ} (h : ∀ i, y i < x i) : cmpf .ogt x y = fun _ => 1#1 :=
  funext fun i => cmpf_ogt_of_lt (h i)

/-- The guard `100000 - float(0) > 0` holds: its mask is set everywhere. -/
theorem cmpf_ogt_100000_zero :
    cmpf .ogt (subf (constant s .f32 0x47C35000#32) (sitofp .f32 (constantI s 32 0#32)) : FVec Ideal s .f32)
        (constant s .f32 0x00000000#32) = fun _ => 1#1 := by
  apply cmpf_ogt_eq_one
  intro i
  rw [subf_100000_sitofp_zero, constant_zero]
  show ((0 : ℝ) : EReal) < ((100000 : ℝ) : EReal)
  exact EReal.coe_lt_coe_iff.mpr (by norm_num)

end Ops

/-- A finite array is the coercion of a real-valued array. -/
theorem IsFin.exists_eq_coe {ι : Type*} {v : ι → EReal} (h : IsFin v) : ∃ a : ι → ℝ, v = fun i => (a i : EReal) :=
  ⟨fun i => (h i).choose, funext fun i => (h i).choose_spec⟩

end Cert.LibFinite
-- ==== Proof.KernelIdeal.Layout.lean ====
import proofs.«110807_j80393197846864_2_alg».proof.Proof.KernelIdeal.Body
import proofs.«110807_j80393197846864_2_alg».proof.Proof.LibMatmul
import proofs.«110807_j80393197846864_2_alg».proof.Proof.LibFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe Idealize.SL.Sem

/-! ## Whole loads and chunk loads -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem ld_rX (x : Vec Ideal S1x64x256 .f32) : View.ld x rX = x := View.ld_unit_zero (S := S1x64x256) hz3 _ x
theorem ld_rJ (x : Vec Ideal S1x128x256 .f32) : View.ld x rJ = x := View.ld_unit_zero (S := S1x128x256) hz3 _ x
theorem ld_rW (x : Vec Ideal S256x256 .f32) : View.ld x rW = x := View.ld_unit_zero (S := S256x256) hz2 _ x
theorem ld_rB (x : Vec Ideal S256 .f32) : View.ld x rB = x := View.ld_unit_zero (S := S256) hz1 _ x
theorem ld_rV (x : Vec Ideal S256x1 .f32) : View.ld x rV = x := View.ld_unit_zero (S := S256x1) hz2 _ x
theorem ld_rC (x : Vec Ideal S1 .f32) : View.ld x rC = x := View.ld_unit_zero (S := S1) hz1 _ x

/-- Chunk c of key rows (32·c … 32·c+31) read out of a block, a scratch or a slab: row r of the chunk is row 32·c + r. -/
theorem ld_rP0 (x : Vec Ideal S1x64x128x256 .f32) (u : Fin 1) (i : Fin 64) (r : Fin 32) (h : Fin 256) :
    View.ld x rP0 (ix4 u i r h) = x (ix4 u i ⟨r.val, by omega⟩ h) := by
  show x (rP0.idx (ix4 u i r h)) = _
  refine congrArg x (funext fun a => Fin.ext ?_)
  match a with
  | ⟨0, _⟩ => show 0 + 1 * u.val = u.val; omega
  | ⟨1, _⟩ => show 0 + 1 * i.val = i.val; omega
  | ⟨2, _⟩ => show 0 + 1 * r.val = r.val; omega
  | ⟨3, _⟩ => show 0 + 1 * h.val = h.val; omega
theorem ld_rS0 (x : Vec Ideal S128x256 .f32) (r : Fin 32) (k : Fin 256) :
    View.ld x rS0 (ix2 r k) = x (ix2 ⟨r.val, by omega⟩ k) := by
  show x (rS0.idx (ix2 r k)) = _
  refine congrArg x (funext fun a => Fin.ext ?_)
  match a with
  | ⟨0, _⟩ => show 0 + 1 * r.val = r.val; omega
  | ⟨1, _⟩ => show 0 + 1 * k.val = k.val; omega
theorem ld_rJ0 (x : Vec Ideal S1x128x256 .f32) (u : Fin 1) (r : Fin 32) (h : Fin 256) :
    View.ld x rJ0 (ix3 u r h) = x (ix3 u ⟨r.val, by omega⟩ h) := by
  show x (rJ0.idx (ix3 u r h)) = _
  refine congrArg x (funext fun a => Fin.ext ?_)
  match a with
  | ⟨0, _⟩ => show 0 + 1 * u.val = u.val; omega
  | ⟨1, _⟩ => show 0 + 1 * r.val = r.val; omega
  | ⟨2, _⟩ => show 0 + 1 * h.val = h.val; omega
theorem ld_rP1 (x : Vec Ideal S1x64x128x256 .f32) (u : Fin 1) (i : Fin 64) (r : Fin 32) (h : Fin 256) :
    View.ld x rP1 (ix4 u i r h) = x (ix4 u i ⟨32 + r.val, by omega⟩ h) := by
  show x (rP1.idx (ix4 u i r h)) = _
  refine congrArg x (funext fun a => Fin.ext ?_)
  match a with
  | ⟨0, _⟩ => show 0 + 1 * u.val = u.val; omega
  | ⟨1, _⟩ => show 0 + 1 * i.val = i.val; omega
  | ⟨2, _⟩ => show 32 + 1 * r.val = 32 + r.val; omega
  | ⟨3, _⟩ => show 0 + 1 * h.val = h.val; omega
theorem ld_rS1 (x : Vec Ideal S128x256 .f32) (r : Fin 32) (k : Fin 256) :
    View.ld x rS1 (ix2 r k) = x (ix2 ⟨32 + r.val, by omega⟩ k) := by
  show x (rS1.idx (ix2 r k)) = _
  refine congrArg x (funext fun a => Fin.ext ?_)
  match a with
  | ⟨0, _⟩ => show 32 + 1 * r.val = 32 + r.val; omega
  | ⟨1, _⟩ => show 0 + 1 * k.val = k.val; omega
theorem ld_rJ1 (x : Vec Ideal S1x128x256 .f32) (u : Fin 1) (r : Fin 32) (h : Fin 256) :
    View.ld x rJ1 (ix3 u r h) = x (ix3 u ⟨32 + r.val, by omega⟩ h) := by
  show x (rJ1.idx (ix3 u r h)) = _
  refine congrArg x (funext fun a => Fin.ext ?_)
  match a with
  | ⟨0, _⟩ => show 0 + 1 * u.val = u.val; omega
  | ⟨1, _⟩ => show 32 + 1 * r.val = 32 + r.val; omega
  | ⟨2, _⟩ => show 0 + 1 * h.val = h.val; omega
theorem ld_rP2 (x : Vec Ideal S1x64x128x256 .f32) (u : Fin 1) (i : Fin 64) (r : Fin 32) (h : Fin 256) :
    View.ld x rP2 (ix4 u i r h) = x (ix4 u i ⟨64 + r.val, by omega⟩ h) := by
  show x (rP2.idx (ix4 u i r h)) = _
  refine congrArg x (funext fun a => Fin.ext ?_)
  match a with
  | ⟨0, _⟩ => show 0 + 1 * u.val = u.val; omega
  | ⟨1, _⟩ => show 0 + 1 * i.val = i.val; omega
  | ⟨2, _⟩ => show 64 + 1 * r.val = 64 + r.val; omega
  | ⟨3, _⟩ => show 0 + 1 * h.val = h.val; omega
theorem ld_rS2 (x : Vec Ideal S128x256 .f32) (r : Fin 32) (k : Fin 256) :
    View.ld x rS2 (ix2 r k) = x (ix2 ⟨64 + r.val, by omega⟩ k) := by
  show x (rS2.idx (ix2 r k)) = _
  refine congrArg x (funext fun a => Fin.ext ?_)
  match a with
  | ⟨0, _⟩ => show 64 + 1 * r.val = 64 + r.val; omega
  | ⟨1, _⟩ => show 0 + 1 * k.val = k.val; omega
theorem ld_rJ2 (x : Vec Ideal S1x128x256 .f32) (u : Fin 1) (r : Fin 32) (h : Fin 256) :
    View.ld x rJ2 (ix3 u r h) = x (ix3 u ⟨64 + r.val, by omega⟩ h) := by
  show x (rJ2.idx (ix3 u r h)) = _
  refine congrArg x (funext fun a => Fin.ext ?_)
  match a with
  | ⟨0, _⟩ => show 0 + 1 * u.val = u.val; omega
  | ⟨1, _⟩ => show 64 + 1 * r.val = 64 + r.val; omega
  | ⟨2, _⟩ => show 0 + 1 * h.val = h.val; omega
theorem ld_rP3 (x : Vec Ideal S1x64x128x256 .f32) (u : Fin 1) (i : Fin 64) (r : Fin 32) (h : Fin 256) :
    View.ld x rP3 (ix4 u i r h) = x (ix4 u i ⟨96 + r.val, by omega⟩ h) := by
  show x (rP3.idx (ix4 u i r h)) = _
  refine congrArg x (funext fun a => Fin.ext ?_)
  match a with
  | ⟨0, _⟩ => show 0 + 1 * u.val = u.val; omega
  | ⟨1, _⟩ => show 0 + 1 * i.val = i.val; omega
  | ⟨2, _⟩ => show 96 + 1 * r.val = 96 + r.val; omega
  | ⟨3, _⟩ => show 0 + 1 * h.val = h.val; omega
theorem ld_rS3 (x : Vec Ideal S128x256 .f32) (r : Fin 32) (k : Fin 256) :
    View.ld x rS3 (ix2 r k) = x (ix2 ⟨96 + r.val, by omega⟩ k) := by
  show x (rS3.idx (ix2 r k)) = _
  refine congrArg x (funext fun a => Fin.ext ?_)
  match a with
  | ⟨0, _⟩ => show 96 + 1 * r.val = 96 + r.val; omega
  | ⟨1, _⟩ => show 0 + 1 * k.val = k.val; omega
theorem ld_rJ3 (x : Vec Ideal S1x128x256 .f32) (u : Fin 1) (r : Fin 32) (h : Fin 256) :
    View.ld x rJ3 (ix3 u r h) = x (ix3 u ⟨96 + r.val, by omega⟩ h) := by
  show x (rJ3.idx (ix3 u r h)) = _
  refine congrArg x (funext fun a => Fin.ext ?_)
  match a with
  | ⟨0, _⟩ => show 0 + 1 * u.val = u.val; omega
  | ⟨1, _⟩ => show 96 + 1 * r.val = 96 + r.val; omega
  | ⟨2, _⟩ => show 0 + 1 * h.val = h.val; omega

/-! ## Reshapes and broadcasts of the body, read at an index -/

section Layout
variable {α : Type}

/-- [64,32,256] flattened to [2048,256]: row 32·i + r is (i, r). -/
theorem cast_flat (v : S64x32x256.Idx → α) (h : S64x32x256.ShapeCasts S2048x256) (i : Fin 64) (r : Fin 32) (k : Fin 256) :
    shapeCast S2048x256 v h (ix2 (⟨32 * i.val + r.val, by omega⟩ : Fin 2048) k) = v (ix3 i r k) :=
  shapeCast_apply v h _ _ (by
    rw [Shape.rowMajor_val_three, Shape.rowMajor_val_two]
    show (i.val * 32 + r.val) * 256 + k.val = (32 * i.val + r.val) * 256 + k.val
    omega)
/-- and back. -/
theorem cast_unflat (v : S2048x256.Idx → α) (h : S2048x256.ShapeCasts S64x32x256) (i : Fin 64) (r : Fin 32) (k : Fin 256) :
    shapeCast S64x32x256 v h (ix3 i r k) = v (ix2 (⟨32 * i.val + r.val, by omega⟩ : Fin 2048) k) :=
  shapeCast_apply v h _ _ (by
    rw [Shape.rowMajor_val_three, Shape.rowMajor_val_two]
    show (32 * i.val + r.val) * 256 + k.val = (i.val * 32 + r.val) * 256 + k.val
    omega)
/-- [64,256] with a unit axis put in the middle. -/
theorem cast_mid (v : S64x256.Idx → α) (h : S64x256.ShapeCasts S64x1x256) (i : Fin 64) (u : Fin 1) (k : Fin 256) :
    shapeCast S64x1x256 v h (ix3 i u k) = v (ix2 i k) :=
  shapeCast_apply v h _ _ (by
    have hu : u.val = 0 := by omega
    rw [Shape.rowMajor_val_three, Shape.rowMajor_val_two]
    show i.val * 256 + k.val = (i.val * 1 + u.val) * 256 + k.val
    rw [hu]; omega)
/-- A [64,1,256] array repeated along the middle axis. -/
theorem bc_mid (v : S64x1x256.Idx → α) (h : S64x1x256.Broadcasts S64x32x256) (i : Fin 64) (r : Fin 32) (k : Fin 256) :
    broadcastTo S64x32x256 v h (ix3 i r k) = v (ix3 i (0 : Fin 1) k) := by
  refine broadcastTo_apply v h (ix3 i r k) (ix3 i (0 : Fin 1) k) fun ax => ?_
  match ax with
  | ⟨0, _⟩ => rfl
  | ⟨1, _⟩ => rfl
  | ⟨2, _⟩ => rfl
/-- A [1,32,256] array repeated along the leading axis. -/
theorem bc_lead (v : S1x32x256.Idx → α) (h : S1x32x256.Broadcasts S64x32x256) (i : Fin 64) (r : Fin 32) (k : Fin 256) :
    broadcastTo S64x32x256 v h (ix3 i r k) = v (ix3 (0 : Fin 1) r k) := by
  refine broadcastTo_apply v h (ix3 i r k) (ix3 (0 : Fin 1) r k) fun ax => ?_
  match ax with
  | ⟨0, _⟩ => rfl
  | ⟨1, _⟩ => rfl
  | ⟨2, _⟩ => rfl
/-- A [64,1] column repeated along the lanes. -/
theorem bc_col (v : S64x1.Idx → α) (h : S64x1.Broadcasts S64x256) (i : Fin 64) (k : Fin 256) :
    broadcastTo S64x256 v h (ix2 i k) = v (ix2 i (0 : Fin 1)) := by
  refine broadcastTo_apply v h (ix2 i k) (ix2 i (0 : Fin 1)) fun ax => ?_
  match ax with
  | ⟨0, _⟩ => rfl
  | ⟨1, _⟩ => rfl
/-- The one entry of a [1,1] array repeated down a column. -/
theorem bc_one (v : S1x1.Idx → α) (h : S1x1.Broadcasts S64x1) (i : Fin 64) (u : Fin 1) :
    broadcastTo S64x1 v h (ix2 i u) = v (ix2 (0 : Fin 1) (0 : Fin 1)) := by
  refine broadcastTo_apply v h (ix2 i u) (ix2 (0 : Fin 1) (0 : Fin 1)) fun ax => ?_
  match ax with
  | ⟨0, _⟩ => rfl
  | ⟨1, _⟩ => rfl

end Layout

/-- A lane-wise sum over the 32 key rows of a chunk. -/
theorem red_rows (src : FVec Ideal S64x32x256 .f32) (hacc : (0x00000000#32 : BitVec 32) = 0x00000000#32) (i : Fin 64) (k : Fin 256) :
    multiReduction .add [1] S64x256 src 0x00000000#32 reduces_S64x32x256_S64x256 (.inl rfl) hacc (ix2 i k) = ∑ r : Fin 32, src (ix3 i r k) := by
  refine (Ideal.multiReduction_add_single src 0x00000000#32 reduces_S64x32x256_S64x256 (.inl rfl) hacc (ix2 i k)).trans ?_
  refine Finset.sum_congr rfl fun r _ => congrArg src (funext fun a => Fin.ext ?_)
  match a with
  | ⟨0, _⟩ => rfl
  | ⟨1, _⟩ => rfl
  | ⟨2, _⟩ => rfl

/-- The body's four matrix products into zero accumulators, as plain sums over the contracted axis. -/
theorem mm_q (x : FVec Ideal S64x256 .bf16) (w : FVec Ideal S256x256 .bf16) (i : Fin 64) (k : Fin 256) :
    matmul dot_S64x256_S256x256_S64x256_1_0_0_1_n_n none x w (constant S64x256 .f32 0x00000000#32) (ix2 i k) = ∑ h : Fin 256, x (ix2 i h) * w (ix2 h k) :=
  congrFun (Cert.LibMatmul.matmul_zero_eq dot_S64x256_S256x256_S64x256_1_0_0_1_n_n rfl rfl rfl rfl rfl rfl none x w) (ix2 i k)
theorem mm_a (x : FVec Ideal S128x256 .bf16) (w : FVec Ideal S256x256 .bf16) (j : Fin 128) (k : Fin 256) :
    matmul dot_S128x256_S256x256_S128x256_1_0_0_1_n_n none x w (constant S128x256 .f32 0x00000000#32) (ix2 j k) = ∑ h : Fin 256, x (ix2 j h) * w (ix2 h k) :=
  congrFun (Cert.LibMatmul.matmul_zero_eq dot_S128x256_S256x256_S128x256_1_0_0_1_n_n rfl rfl rfl rfl rfl rfl none x w) (ix2 j k)
theorem mm_b (x : FVec Ideal S2048x256 .bf16) (w : FVec Ideal S256x256 .bf16) (p : Fin 2048) (k : Fin 256) :
    matmul dot_S2048x256_S256x256_S2048x256_1_0_0_1_n_n none x w (constant S2048x256 .f32 0x00000000#32) (ix2 p k) = ∑ h : Fin 256, x (ix2 p h) * w (ix2 h k) :=
  congrFun (Cert.LibMatmul.matmul_zero_eq dot_S2048x256_S256x256_S2048x256_1_0_0_1_n_n rfl rfl rfl rfl rfl rfl none x w) (ix2 p k)
theorem mm_s (x : FVec Ideal S64x256 .bf16) (w : FVec Ideal S256x1 .bf16) (i : Fin 64) (u : Fin 1) :
    matmul dot_S64x256_S256x1_S64x1_1_0_0_1_n_n none x w (constant S64x1 .f32 0x00000000#32) (ix2 i u) = ∑ k : Fin 256, x (ix2 i k) * w (ix2 k u) :=
  congrFun (Cert.LibMatmul.matmul_zero_eq dot_S64x256_S256x1_S64x1_1_0_0_1_n_n rfl rfl rfl rfl rfl rfl none x w) (ix2 i u)

end Cert.KernelIdeal.Hand

end
-- ==== Proof.KernelIdeal.Payloads.lean ====
import proofs.«110807_j80393197846864_2_alg».proof.Proof.KernelIdeal.Layout
import proofs.«110807_j80393197846864_2_alg».proof.Proof.LibMatmul
import proofs.«110807_j80393197846864_2_alg».proof.Proof.LibFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe Idealize.SL.Sem

/-! ## The body's payloads read at an index, at the ideal values

Every payload is a chain of reshapes, broadcasts, lane-wise operations, matrix products into a zero accumulator and
sums over the 32 key rows of a chunk; each lemma reads one of them at explicit coordinates (i : query row of the block,
r : key row of the chunk, k or h : lane). A change of float format is the identity here. -/

theorem zero_splat (i : Fin 64) (k : Fin 256) : k0_pay9 (F := Ideal) (ix2 i k) = 0 := Ideal.ofBits_zero_f32

/-- the query rows X_i -/
theorem qRows_apply (x0 : Vec Ideal S1x64x256 .f32) (i : Fin 64) (h : Fin 256) : qRows x0 (ix2 i h) = x0 (ix3 (0 : Fin 1) i h) := by
  simp only [qRows, k0_pay3, ld_rX]
  exact shapeCast_1ab_ab_apply x0 _ i h

/-- X_i · W_atom -/
theorem xwQ_apply (x0 : Vec Ideal S1x64x256 .f32) (x3 : Vec Ideal S256x256 .f32) (i : Fin 64) (k : Fin 256) :
    xwQ x0 x3 (ix2 i k) = ∑ h : Fin 256, x0 (ix3 (0 : Fin 1) i h) * x3 (ix2 h k) := by
  simp only [xwQ, k0_pay7, k0_pay3, k0_pay4, ld_rX, ld_rW]
  refine (mm_q _ _ i k).trans (Finset.sum_congr rfl fun h _ => ?_)
  rw [truncf_apply, truncf_apply, shapeCast_1ab_ab_apply]

/-- the scratch: X · W_atom for all 128 key rows -/
theorem xwAll_apply (x1 : Vec Ideal S1x128x256 .f32) (x3 : Vec Ideal S256x256 .f32) (j : Fin 128) (k : Fin 256) :
    xwAll x1 x3 (ix2 j k) = ∑ h : Fin 256, x1 (ix3 (0 : Fin 1) j h) * x3 (ix2 h k) := by
  unfold xwAll
  rw [View.canon_unit_zero hz2]
  simp only [k0_pay8, k0_pay4, ld_rW, ld_rJ]
  rw [shapeCast_self]
  refine (mm_a _ _ j k).trans (Finset.sum_congr rfl fun h _ => ?_)
  rw [truncf_apply, truncf_apply, shapeCast_1ab_ab_apply]

/-- a chunk of bin_features times W_bin, plus b_bin -/
theorem binh_apply (w : FVec Ideal S256x256 .bf16) (b : Vec Ideal S256 .f32) (v : Vec Ideal S1x64x32x256 .f32) (i : Fin 64) (r : Fin 32) (k : Fin 256) :
    k0_pay13 w b v (ix3 i r k) = (∑ h : Fin 256, v (ix4 (0 : Fin 1) i r h) * w (ix2 h k)) + b (ix1 k) := by
  simp only [k0_pay13]
  rw [cast_unflat, addf_apply, broadcastTo_1b_ab_apply, shapeCast_a_1a_apply]
  refine congrArg (· + b (ix1 k)) ?_
  refine (mm_b _ _ _ k).trans (Finset.sum_congr rfl fun h _ => ?_)
  rw [truncf_apply, cast_flat, shapeCast_1abc_abc_apply]

/-- the same for chunk 0, whose payload rounds W_bin itself -/
theorem binh0_apply (w : Vec Ideal S256x256 .f32) (b : Vec Ideal S256 .f32) (v : Vec Ideal S1x64x32x256 .f32) (i : Fin 64) (r : Fin 32) (k : Fin 256) :
    k0_pay10 w b v (ix3 i r k) = (∑ h : Fin 256, v (ix4 (0 : Fin 1) i r h) * w (ix2 h k)) + b (ix1 k) := by
  simp only [k0_pay10, k0_pay5]
  rw [cast_unflat, addf_apply, broadcastTo_1b_ab_apply, shapeCast_a_1a_apply]
  refine congrArg (· + b (ix1 k)) ?_
  refine (mm_b _ _ _ k).trans (Finset.sum_congr rfl fun h _ => ?_)
  rw [truncf_apply, truncf_apply, cast_flat, shapeCast_1abc_abc_apply]

/-- the hidden activation of a chunk: max (xw_i + xw_j + (bin · W_bin + b_bin), 0) -/
theorem hid_apply (w : FVec Ideal S256x256 .bf16) (b : Vec Ideal S256 .f32) (q : FVec Ideal S64x256 .f32) (v : Vec Ideal S1x64x32x256 .f32)
    (a : Vec Ideal S32x256 .f32) (i : Fin 64) (r : Fin 32) (k : Fin 256) :
    k0_pay19 w b q v a (ix3 i r k)
      = max ((q (ix2 i k) + a (ix2 r k)) + ((∑ h : Fin 256, v (ix4 (0 : Fin 1) i r h) * w (ix2 h k)) + b (ix1 k))) 0 := by
  simp only [k0_pay19]
  rw [maximumf_apply, addf_apply, addf_apply, bc_mid, cast_mid, bc_lead, shapeCast_ab_1ab_apply]
  exact congrArg₂ max (congrArg (_ + ·) (binh_apply w b v i r k)) Ideal.ofBits_zero_f32
theorem hid'_apply (w : FVec Ideal S256x256 .bf16) (b : Vec Ideal S256 .f32) (q : FVec Ideal S64x256 .f32) (v : Vec Ideal S1x64x32x256 .f32)
    (a : Vec Ideal S32x256 .f32) (i : Fin 64) (r : Fin 32) (k : Fin 256) :
    k0_pay23 w b q v a (ix3 i r k)
      = max ((q (ix2 i k) + a (ix2 r k)) + ((∑ h : Fin 256, v (ix4 (0 : Fin 1) i r h) * w (ix2 h k)) + b (ix1 k))) 0 := by
  simp only [k0_pay23]
  rw [maximumf_apply, addf_apply, addf_apply, bc_mid, cast_mid, bc_lead, shapeCast_ab_1ab_apply]
  exact congrArg₂ max (congrArg (_ + ·) (binh_apply w b v i r k)) Ideal.ofBits_zero_f32

/-- h_sum after chunk 0: the start value plus the chunk's sum -/
theorem acc_first (q z : FVec Ideal S64x256 .f32) (hb : FVec Ideal S64x32x256 .f32) (a : Vec Ideal S32x256 .f32) (i : Fin 64) (k : Fin 256) :
    k0_pay12 q z hb a (ix2 i k) = z (ix2 i k) + ∑ r : Fin 32, max ((q (ix2 i k) + a (ix2 r k)) + hb (ix3 i r k)) 0 := by
  simp only [k0_pay12]
  rw [addf_apply, red_rows]
  refine congrArg (z (ix2 i k) + ·) (Finset.sum_congr rfl fun r _ => ?_)
  rw [maximumf_apply, addf_apply, addf_apply, bc_mid, cast_mid, bc_lead, shapeCast_ab_1ab_apply]
  exact congrArg (max _) Ideal.ofBits_zero_f32

theorem mid_apply (q : FVec Ideal S64x256 .f32) (i : Fin 64) (u : Fin 1) (k : Fin 256) : k0_pay15 q (ix3 i u k) = q (ix2 i k) := by
  simp only [k0_pay15]; exact cast_mid q _ i u k
theorem mid'_apply (q : FVec Ideal S64x256 .f32) (i : Fin 64) (u : Fin 1) (k : Fin 256) : k0_pay20 q (ix3 i u k) = q (ix2 i k) := by
  simp only [k0_pay20]; exact cast_mid q _ i u k

/-- h_sum after chunk 1 -/
theorem acc_next (p : FVec Ideal S64x256 .f32) (hb : FVec Ideal S64x32x256 .f32) (a : Vec Ideal S32x256 .f32) (qm : FVec Ideal S64x1x256 .f32)
    (i : Fin 64) (k : Fin 256) :
    k0_pay17 p hb a qm (ix2 i k) = p (ix2 i k) + ∑ r : Fin 32, max ((qm (ix3 i (0 : Fin 1) k) + a (ix2 r k)) + hb (ix3 i r k)) 0 := by
  simp only [k0_pay17]
  rw [addf_apply, red_rows]
  refine congrArg (p (ix2 i k) + ·) (Finset.sum_congr rfl fun r _ => ?_)
  rw [maximumf_apply, addf_apply, addf_apply, bc_mid, bc_lead, shapeCast_ab_1ab_apply]
  exact congrArg (max _) Ideal.ofBits_zero_f32

/-- h_sum after chunk 2 -/
theorem acc_add (p : FVec Ideal S64x256 .f32) (hd : FVec Ideal S64x32x256 .f32) (i : Fin 64) (k : Fin 256) :
    k0_pay22 p hd (ix2 i k) = p (ix2 i k) + ∑ r : Fin 32, hd (ix3 i r k) := by
  simp only [k0_pay22]
  rw [addf_apply, red_rows]

/-- the last payload: X_i * ((h_sum + last chunk's sum) · w_score + 128 · b_score) -/
theorem ctx_pay_apply (q : FVec Ideal S64x256 .f32) (w : FVec Ideal S256x1 .bf16) (b : Vec Ideal S1 .f32) (acc : FVec Ideal S64x256 .f32)
    (hd : FVec Ideal S64x32x256 .f32) (u : Fin 1) (i : Fin 64) (h : Fin 256) :
    k0_pay2 q w b acc hd (ix3 u i h)
      = q (ix2 i h) * ((∑ k : Fin 256, (acc (ix2 i k) + ∑ r : Fin 32, hd (ix3 i r k)) * w (ix2 k (0 : Fin 1)))
          + Ideal.ofBits .f32 0x43000000#32 * b (ix1 (0 : Fin 1))) := by
  simp only [k0_pay2]
  rw [shapeCast_ab_1ab_apply, mulf_apply, bc_col, addf_apply, bc_one, shapeCast_a_1a_apply, mulf_apply]
  refine congrArg (q (ix2 i h) * ·) (congrArg₂ (· + ·) ?_ rfl)
  refine (mm_s _ _ i 0).trans (Finset.sum_congr rfl fun k _ => ?_)
  rw [truncf_apply, addf_apply, red_rows]

/-! ### The four stores of the pair block -/

theorem pair0_apply (q : FVec Ideal S64x256 .f32) (a : Vec Ideal S1x32x256 .f32) (u : Fin 1) (i : Fin 64) (r : Fin 32) (h : Fin 256) :
    k0_pay11 q a (ix4 u i r h) = q (ix2 i h) + a (ix3 (0 : Fin 1) r h) := by
  simp only [k0_pay11]
  rw [shapeCast_abc_1abc_apply, addf_apply, bc_mid, cast_mid, bc_lead, shapeCast_ab_1ab_apply, shapeCast_1ab_ab_apply]
theorem row_apply (a : Vec Ideal S1x32x256 .f32) (r : Fin 32) (h : Fin 256) : k0_pay14 a (ix2 r h) = a (ix3 (0 : Fin 1) r h) := by
  simp only [k0_pay14]; exact shapeCast_1ab_ab_apply a _ r h
theorem row'_apply (a : Vec Ideal S1x32x256 .f32) (r : Fin 32) (h : Fin 256) : k0_pay18 a (ix2 r h) = a (ix3 (0 : Fin 1) r h) := by
  simp only [k0_pay18]; exact shapeCast_1ab_ab_apply a _ r h
theorem pair1_apply (q : FVec Ideal S64x256 .f32) (a : FVec Ideal S32x256 .f32) (u : Fin 1) (i : Fin 64) (r : Fin 32) (h : Fin 256) :
    k0_pay16 q a (ix4 u i r h) = q (ix2 i h) + a (ix2 r h) := by
  simp only [k0_pay16]
  rw [shapeCast_abc_1abc_apply, addf_apply, bc_mid, cast_mid, bc_lead, shapeCast_ab_1ab_apply]
theorem pair2_apply (a : FVec Ideal S32x256 .f32) (qm : FVec Ideal S64x1x256 .f32) (u : Fin 1) (i : Fin 64) (r : Fin 32) (h : Fin 256) :
    k0_pay21 a qm (ix4 u i r h) = qm (ix3 i (0 : Fin 1) h) + a (ix2 r h) := by
  simp only [k0_pay21]
  rw [shapeCast_abc_1abc_apply, addf_apply, bc_mid, bc_lead, shapeCast_ab_1ab_apply]
theorem pair3_apply (q : FVec Ideal S64x256 .f32) (a : Vec Ideal S1x32x256 .f32) (u : Fin 1) (i : Fin 64) (r : Fin 32) (h : Fin 256) :
    k0_pay1 (k0_pay24 q a) (ix4 u i r h) = q (ix2 i h) + a (ix3 (0 : Fin 1) r h) := by
  simp only [k0_pay1, k0_pay24]
  rw [shapeCast_abc_1abc_apply, addf_apply, bc_mid, cast_mid, bc_lead, shapeCast_ab_1ab_apply, shapeCast_1ab_ab_apply]

end Cert.KernelIdeal.Hand

end
-- ==== Proof.Spec.lean ====
/-
  The mathematics of the two programs, over the extended reals, and the law that joins them.

  With X = inputs [16,128,256], Bn = bin_features [16,128,128,256], Wa = W_atom, Wb = W_bin [256,256], bb = b_bin [256],
  ws = w_score [256,1], bs = b_score [1]:
    xw[b,n,k]      = Σ_h X[b,n,h] · Wa[h,k]
    binw[b,i,j,k]  = Σ_h Bn[b,i,j,h] · Wb[h,k]
    hid[b,i,j,k]   = max (xw[b,i,k] + xw[b,j,k] + binw[b,i,j,k] + bb[k]) 0
    pair[b,i,j,h]  = X[b,i,h] + X[b,j,h]
  The reference's context is  0 + Σ_j ((Σ_k hid[b,i,j,k] · ws[k,0]) + bs[0]) · X[b,i,h];  the kernel's is
  X[b,i,h] · ((Σ_k (Σ_j hid[b,i,j,k]) · ws[k,0]) + 128 · bs[0]), its sum over j taken in four chunks of 32. The two
  agree when every quantity is a real number (the sum over j is moved across the product with ws, and the 128 copies of
  bs collect): `ctx_law`. On the extended reals with infinities that distribution fails, which is where finiteness of the
  inputs is used.
-/
import Idealize.ShloMosaic.PureOps.Ideal
import Idealize.ShloMosaic.PureOps.Ideal.Laws
import Idealize.ShloMosaic.Lib.ValueIdx
import proofs.«110807_j80393197846864_2_alg».proof.Proof.LibFinite

noncomputable section

open scoped BigOperators

namespace Cert.Spec

open Idealize.ShloMosaic Idealize.ShloMosaic.ValueIdx Cert.LibFinite

abbrev S3 : Shape := ⟨3, ![16, 128, 256]⟩
abbrev S4 : Shape := ⟨4, ![16, 128, 128, 256]⟩
abbrev SW : Shape := ⟨2, ![256, 256]⟩
abbrev SB : Shape := ⟨1, ![256]⟩
abbrev SV : Shape := ⟨2, ![256, 1]⟩
abbrev SC : Shape := ⟨1, ![1]⟩

section Defs
variable (X : S3.Idx → EReal) (Bn : S4.Idx → EReal) (Wa Wb : SW.Idx → EReal) (bb : SB.Idx → EReal) (ws : SV.Idx → EReal) (bs : SC.Idx → EReal)

/-- (X · W_atom)[b, n, k] -/
def xw (b : Fin 16) (n : Fin 128) (k : Fin 256) : EReal := ∑ h : Fin 256, X (ix3 b n h) * Wa (ix2 h k)
/-- (bin_features · W_bin)[b, i, j, k] -/
def binw (b : Fin 16) (i j : Fin 128) (k : Fin 256) : EReal := ∑ h : Fin 256, Bn (ix4 b i j h) * Wb (ix2 h k)
/-- the hidden activation, summed as the reference sums it: ((xw_i + xw_j) + binw) + b_bin, -/
def hidR (b : Fin 16) (i j : Fin 128) (k : Fin 256) : EReal :=
  max (((xw X Wa b i k + xw X Wa b j k) + binw Bn Wb b i j k) + bb (ix1 k)) 0
/-- and as the kernel sums it: (xw_i + xw_j) + (binw + b_bin). -/
def hidK (b : Fin 16) (i j : Fin 128) (k : Fin 256) : EReal :=
  max ((xw X Wa b i k + xw X Wa b j k) + (binw Bn Wb b i j k + bb (ix1 k))) 0

theorem hidK_eq (b : Fin 16) (i j : Fin 128) (k : Fin 256) : hidK X Bn Wa Wb bb b i j k = hidR X Bn Wa Wb bb b i j k := by
  unfold hidK hidR; rw [add_assoc (xw X Wa b i k + xw X Wa b j k)]

/-- atom_pair -/
def pairG : S4.Idx → EReal := fun i => X (ix3 (i 0) (i 1) (i 3)) + X (ix3 (i 0) (i 2) (i 3))

/-- the reference's context at (b, i, h) -/
def ctxR (b : Fin 16) (i : Fin 128) (h : Fin 256) : EReal :=
  0 + ∑ j : Fin 128, ((∑ k : Fin 256, hidR X Bn Wa Wb bb b i j k * ws (ix2 k 0)) + bs (ix1 0)) * X (ix3 b i h)
/-- the kernel's context at (b, i, h) -/
def ctxK (b : Fin 16) (i : Fin 128) (h : Fin 256) : EReal :=
  X (ix3 b i h) * ((∑ k : Fin 256, (∑ j : Fin 128, hidK X Bn Wa Wb bb b i j k) * ws (ix2 k 0)) + ((128 : ℝ) : EReal) * bs (ix1 0))

/-- the context array both programs end with -/
def ctxG : S3.Idx → EReal := fun i => ctxR X Bn Wa Wb bb ws bs (i 0) (i 1) (i 2)

end Defs

/-! ## Sums -/

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over 128 terms taken in four chunks of 32. -/
theorem sum_four_chunks {M : Type*} [AddCommMonoid M] (f : Fin 128 → M) :
    (((∑ r : Fin 32, f ⟨r.val, by omega⟩) + ∑ r : Fin 32, f ⟨32 + r.val, by omega⟩) + ∑ r : Fin 32, f ⟨64 + r.val, by omega⟩)
        + ∑ r : Fin 32, f ⟨96 + r.val, by omega⟩ = ∑ j, f j := by
  rw [← Equiv.sum_comp (finProdFinEquiv (m := 4) (n := 32)) f, Fintype.sum_prod_type, Fin.sum_univ_four]
  have key : ∀ (c : Fin 4) (r : Fin 32), f (finProdFinEquiv (c, r)) = f ⟨32 * c.val + r.val, by omega⟩ :=
    fun c r => congrArg f (Fin.ext (by simp [finProdFinEquiv]; omega))
  simp only [key]
  rfl

/-! ## The law -/

/-- For reals: x · ((Σ_k (Σ_j H j k) · w k) + n · b) = 0 + Σ_j ((Σ_k H j k · w k) + b) · x, n the number of j's. -/
theorem ctx_law {J K : Type*} [Fintype J] [Fintype K] (H : J → K → EReal) (w : K → EReal) (b x : EReal) (n : ℝ)
    (hn : (Fintype.card J : ℝ) = n)
    (hH : ∀ j k, IsReal (H j k)) (hw : ∀ k, IsReal (w k)) (hb : IsReal b) (hx : IsReal x) :
    x * ((∑ k, (∑ j, H j k) * w k) + (n : EReal) * b) = 0 + ∑ j, ((∑ k, H j k * w k) + b) * x := by
  obtain ⟨h, rfl⟩ : ∃ h : J → K → ℝ, H = fun j k => (h j k : EReal) :=
    ⟨fun j k => (hH j k).choose, funext fun j => funext fun k => (hH j k).choose_spec⟩
  obtain ⟨wr, rfl⟩ : ∃ wr : K → ℝ, w = fun k => (wr k : EReal) := ⟨fun k => (hw k).choose, funext fun k => (hw k).choose_spec⟩
  obtain ⟨br, rfl⟩ := hb
  obtain ⟨xr, rfl⟩ := hx
  have e : ∑ j, ((∑ k, h j k * wr k) + br) * xr = xr * ((∑ k, (∑ j, h j k) * wr k) + n * br) := by
    rw [← Finset.sum_mul, Finset.sum_add_distrib, Finset.sum_const, Finset.card_univ, nsmul_eq_mul, hn, Finset.sum_comm]
    simp only [Finset.sum_mul]
    ring
  simp only [← coe_sum, ← EReal.coe_mul, ← EReal.coe_add, zero_add]
  rw [e]

end Cert.Spec

end
-- ==== Proof.RowSpec.lean ====
/-
  The kernel's context at one query row, as a function of that row's data alone.

  For one (b, i): Q = X[b, i, ·] (the query row), Kx j = X[b, j, ·] (the 128 key rows), Bq j = Bn[b, i, j, ·] (the row's
  bin features). Then xw[b,i,k] = Σ_h Q h · Wa[h,k], xw[b,j,k] = Σ_h Kx j h · Wa[h,k], binw[b,i,j,k] = Σ_h Bq j h · Wb[h,k],
  and the kernel's context at lane h is Q h · ((Σ_k (Σ_j hid j k) · ws[k,0]) + 128 · bs[0]). A block of the kernel sees
  exactly this data, which is why its result is a block of the whole-array function `Cert.Spec.ctxK`.
-/
import proofs.«110807_j80393197846864_2_alg».proof.Proof.Spec

noncomputable section

open scoped BigOperators

namespace Cert.Spec

open Idealize.ShloMosaic Idealize.ShloMosaic.ValueIdx

/-- one row times a [256,256] matrix, at lane k -/
def xwRow (q : Fin 256 → EReal) (W : SW.Idx → EReal) (k : Fin 256) : EReal := ∑ h : Fin 256, q h * W (ix2 h k)

/-- the hidden activation of key row j at lane k, summed as the kernel sums it -/
def hidRow (Q : Fin 256 → EReal) (Kx Bq : Fin 128 → Fin 256 → EReal) (Wa Wb : SW.Idx → EReal) (bb : SB.Idx → EReal)
    (j : Fin 128) (k : Fin 256) : EReal :=
  max ((xwRow Q Wa k + xwRow (Kx j) Wa k) + (xwRow (Bq j) Wb k + bb (ix1 k))) 0

/-- the kernel's context of the row at lane h -/
def ctxRow (Q : Fin 256 → EReal) (Kx Bq : Fin 128 → Fin 256 → EReal) (Wa Wb : SW.Idx → EReal) (bb : SB.Idx → EReal)
    (ws : SV.Idx → EReal) (bs : SC.Idx → EReal) (h : Fin 256) : EReal :=
  Q h * ((∑ k : Fin 256, (∑ j : Fin 128, hidRow Q Kx Bq Wa Wb bb j k) * ws (ix2 k (0 : Fin 1))) + ((128 : ℝ) : EReal) * bs (ix1 (0 : Fin 1)))

/-- The whole-array kernel context is the row function at the row's data. -/
theorem ctxK_eq_row (X : S3.Idx → EReal) (Bn : S4.Idx → EReal) (Wa Wb : SW.Idx → EReal) (bb : SB.Idx → EReal) (ws : SV.Idx → EReal)
    (bs : SC.Idx → EReal) (b : Fin 16) (i : Fin 128) (h : Fin 256) :
    ctxK X Bn Wa Wb bb ws bs b i h
      = ctxRow (fun hh => X (ix3 b i hh)) (fun j hh => X (ix3 b j hh)) (fun j hh => Bn (ix4 b i j hh)) Wa Wb bb ws bs h := rfl

/-- the pattern of the float 128.0 -/
theorem ofBits_128 : Ideal.ofBits .f32 0x43000000#32 = ((128 : ℝ) : EReal) := by
  simp [Ideal.ofBits, Ideal.ieee, -EReal.coe_mul]; norm_num

end Cert.Spec

end
-- ==== Proof.KernelIdeal.Blocks.lean ====
import proofs.«110807_j80393197846864_2_alg».proof.Proof.KernelIdeal.Payloads
import proofs.«110807_j80393197846864_2_alg».proof.Proof.RowSpec
import proofs.«110807_j80393197846864_2_alg».proof.Proof.LibMatmul
import proofs.«110807_j80393197846864_2_alg».proof.Proof.LibFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe Idealize.SL.Sem

/-! ## The two result blocks as functions of the input blocks, index by index

`pairBlk` at (·, i, j, h) is X_i[i, h] + X[j, h]: its four stores are the four chunks of key rows of that one function.
`ctxBlk` at (·, i, h) is the row function `Cert.Spec.ctxRow` of query row i's data: the running sum h_sum, taken chunk by
chunk from zero, is the sum over all 128 key rows. -/

/-- what the pair block holds at a block index -/
def pairFn (x0 : Vec Ideal S1x64x256 .f32) (x1 : Vec Ideal S1x128x256 .f32) : Vec Ideal S1x64x128x256 .f32 :=
  fun y => x0 (ix3 (0 : Fin 1) (y 1) (y 3)) + x1 (ix3 (0 : Fin 1) (y 2) (y 3))

theorem piece0 (x0 : Vec Ideal S1x64x256 .f32) (x1 : Vec Ideal S1x128x256 .f32) (x : rP0.shape.Idx) :
    (k0_pay11 (qRows x0) (View.ld x1 rJ0)) x = pairFn x0 x1 (rP0.emb x) := by
  obtain ⟨u, i, r, h, rfl⟩ : ∃ (u : Fin 1) (i : Fin 64) (r : Fin 32) (h : Fin 256), x = ix4 u i r h := ⟨x 0, x 1, x 2, x 3, eq_ix4 x⟩
  rw [pair0_apply, qRows_apply, ld_rJ0]
  unfold pairFn
  refine congrArg₂ (· + ·) (congrArg x0 (funext fun a => Fin.ext ?_)) (congrArg x1 (funext fun a => Fin.ext ?_))
  · match a with
    | ⟨0, _⟩ => rfl
    | ⟨1, _⟩ => show i.val = 0 + 1 * i.val; omega
    | ⟨2, _⟩ => show h.val = 0 + 1 * h.val; omega
  · match a with
    | ⟨0, _⟩ => rfl
    | ⟨1, _⟩ => show r.val = 0 + 1 * r.val; omega
    | ⟨2, _⟩ => show h.val = 0 + 1 * h.val; omega

theorem piece1 (x0 : Vec Ideal S1x64x256 .f32) (x1 : Vec Ideal S1x128x256 .f32) (x : rP1.shape.Idx) :
    (k0_pay16 (qRows x0) (k0_pay14 (View.ld x1 rJ1))) x = pairFn x0 x1 (rP1.emb x) := by
  obtain ⟨u, i, r, h, rfl⟩ : ∃ (u : Fin 1) (i : Fin 64) (r : Fin 32) (h : Fin 256), x = ix4 u i r h := ⟨x 0, x 1, x 2, x 3, eq_ix4 x⟩
  rw [pair1_apply, qRows_apply, row_apply, ld_rJ1]
  unfold pairFn
  refine congrArg₂ (· + ·) (congrArg x0 (funext fun a => Fin.ext ?_)) (congrArg x1 (funext fun a => Fin.ext ?_))
  · match a with
    | ⟨0, _⟩ => rfl
    | ⟨1, _⟩ => show i.val = 0 + 1 * i.val; omega
    | ⟨2, _⟩ => show h.val = 0 + 1 * h.val; omega
  · match a with
    | ⟨0, _⟩ => rfl
    | ⟨1, _⟩ => show 32 + r.val = 32 + 1 * r.val; omega
    | ⟨2, _⟩ => show h.val = 0 + 1 * h.val; omega

theorem piece2 (x0 : Vec Ideal S1x64x256 .f32) (x1 : Vec Ideal S1x128x256 .f32) (x : rP2.shape.Idx) :
    (k0_pay21 (k0_pay18 (View.ld x1 rJ2)) (k0_pay20 (qRows x0))) x = pairFn x0 x1 (rP2.emb x) := by
  obtain ⟨u, i, r, h, rfl⟩ : ∃ (u : Fin 1) (i : Fin 64) (r : Fin 32) (h : Fin 256), x = ix4 u i r h := ⟨x 0, x 1, x 2, x 3, eq_ix4 x⟩
  rw [pair2_apply, mid'_apply, qRows_apply, row'_apply, ld_rJ2]
  unfold pairFn
  refine congrArg₂ (· + ·) (congrArg x0 (funext fun a => Fin.ext ?_)) (congrArg x1 (funext fun a => Fin.ext ?_))
  · match a with
    | ⟨0, _⟩ => rfl
    | ⟨1, _⟩ => show i.val = 0 + 1 * i.val; omega
    | ⟨2, _⟩ => show h.val = 0 + 1 * h.val; omega
  · match a with
    | ⟨0, _⟩ => rfl
    | ⟨1, _⟩ => show 64 + r.val = 64 + 1 * r.val; omega
    | ⟨2, _⟩ => show h.val = 0 + 1 * h.val; omega

theorem piece3 (x0 : Vec Ideal S1x64x256 .f32) (x1 : Vec Ideal S1x128x256 .f32) (x : rP3.shape.Idx) :
    (k0_pay1 (k0_pay24 (qRows x0) (View.ld x1 rJ3))) x = pairFn x0 x1 (rP3.emb x) := by
  obtain ⟨u, i, r, h, rfl⟩ : ∃ (u : Fin 1) (i : Fin 64) (r : Fin 32) (h : Fin 256), x = ix4 u i r h := ⟨x 0, x 1, x 2, x 3, eq_ix4 x⟩
  rw [pair3_apply, qRows_apply, ld_rJ3]
  unfold pairFn
  refine congrArg₂ (· + ·) (congrArg x0 (funext fun a => Fin.ext ?_)) (congrArg x1 (funext fun a => Fin.ext ?_))
  · match a with
    | ⟨0, _⟩ => rfl
    | ⟨1, _⟩ => show i.val = 0 + 1 * i.val; omega
    | ⟨2, _⟩ => show h.val = 0 + 1 * h.val; omega
  · match a with
    | ⟨0, _⟩ => rfl
    | ⟨1, _⟩ => show 96 + r.val = 96 + 1 * r.val; omega
    | ⟨2, _⟩ => show h.val = 0 + 1 * h.val; omega

theorem pairBlk_eq (x0 : Vec Ideal S1x64x256 .f32) (x1 : Vec Ideal S1x128x256 .f32) (y : S1x64x128x256.Idx) :
    pairBlk x0 x1 y = pairFn x0 x1 y := by
  unfold pairBlk
  refine View.canon_apply_of_pieces (Val := Elt Ideal) (pairFn x0 x1) _ ?_ y (coverPair _ _ _ _ y)
  intro p hp x
  simp only [List.mem_cons, List.not_mem_nil, or_false] at hp
  rcases hp with rfl | rfl | rfl | rfl
  · exact piece3 x0 x1 x
  · exact piece2 x0 x1 x
  · exact piece1 x0 x1 x
  · exact piece0 x0 x1 x

theorem pairBlk_apply (x0 : Vec Ideal S1x64x256 .f32) (x1 : Vec Ideal S1x128x256 .f32) (u : Fin 1) (i : Fin 64) (j : Fin 128) (h : Fin 256) :
    pairBlk x0 x1 (ix4 u i j h) = x0 (ix3 (0 : Fin 1) i h) + x1 (ix3 (0 : Fin 1) j h) :=
  pairBlk_eq x0 x1 (ix4 u i j h)

/-! ### The context block -/

section Ctx
variable (x0 : Vec Ideal S1x64x256 .f32) (x1 : Vec Ideal S1x128x256 .f32) (x2 : Vec Ideal S1x64x128x256 .f32)
  (x3 x4 : Vec Ideal S256x256 .f32) (x5 : Vec Ideal S256 .f32) (x6 : Vec Ideal S256x1 .f32) (x7 : Vec Ideal S1 .f32)

/-- The hidden activation of query row i against key row j at lane k, from the blocks. -/
abbrev hidB (i : Fin 64) (j : Fin 128) (k : Fin 256) : EReal :=
  Cert.Spec.hidRow (fun hh => x0 (ix3 (0 : Fin 1) i hh)) (fun j hh => x1 (ix3 (0 : Fin 1) j hh)) (fun j hh => x2 (ix4 (0 : Fin 1) i j hh)) x3 x4 x5 j k

/-- One summand of a chunk: with the key row's xw read out of the scratch and the chunk of bin features, it is the hidden
    activation at key row j. -/
theorem summand (i : Fin 64) (j : Fin 128) (k : Fin 256) (a : EReal) (v : Fin 256 → EReal)
    (ha : a = xwAll x1 x3 (ix2 j k)) (hv : ∀ hh, v hh = x2 (ix4 (0 : Fin 1) i j hh)) :
    max ((xwQ x0 x3 (ix2 i k) + a) + ((∑ hh : Fin 256, v hh * x4 (ix2 hh k)) + x5 (ix1 k))) 0 = hidB x0 x1 x2 x3 x4 x5 i j k := by
  unfold hidB Cert.Spec.hidRow Cert.Spec.xwRow
  rw [ha, xwQ_apply, xwAll_apply]
  simp only [hv]

theorem chunk0 (i : Fin 64) (k : Fin 256) (r : Fin 32) :
    max ((xwQ x0 x3 (ix2 i k) + View.ld (xwAll x1 x3) rS0 (ix2 r k)) + k0_pay10 (View.ld x4 rW) (View.ld x5 rB) (View.ld x2 rP0) (ix3 i r k)) 0
      = hidB x0 x1 x2 x3 x4 x5 i ⟨r.val, by omega⟩ k := by
  rw [binh0_apply, ld_rW, ld_rB]
  exact summand x0 x1 x2 x3 x4 x5 i _ k _ _ (ld_rS0 _ r k) (fun hh => ld_rP0 x2 0 i r hh)
theorem chunk1 (i : Fin 64) (k : Fin 256) (r : Fin 32) :
    max ((k0_pay15 (xwQ x0 x3) (ix3 i (0 : Fin 1) k) + View.ld (xwAll x1 x3) rS1 (ix2 r k))
        + k0_pay13 (k0_pay5 (View.ld x4 rW)) (View.ld x5 rB) (View.ld x2 rP1) (ix3 i r k)) 0
      = hidB x0 x1 x2 x3 x4 x5 i ⟨32 + r.val, by omega⟩ k := by
  rw [binh_apply, mid_apply, ld_rB]
  simp only [k0_pay5, ld_rW, truncf_apply]
  exact summand x0 x1 x2 x3 x4 x5 i _ k _ _ (ld_rS1 _ r k) (fun hh => ld_rP1 x2 0 i r hh)
theorem chunk2 (i : Fin 64) (k : Fin 256) (r : Fin 32) :
    hid2 x0 x1 x2 x3 x4 x5 (ix3 i r k) = hidB x0 x1 x2 x3 x4 x5 i ⟨64 + r.val, by omega⟩ k := by
  unfold hid2
  rw [hid_apply, ld_rB]
  simp only [k0_pay5, ld_rW, truncf_apply]
  exact summand x0 x1 x2 x3 x4 x5 i _ k _ _ (ld_rS2 _ r k) (fun hh => ld_rP2 x2 0 i r hh)
theorem chunk3 (i : Fin 64) (k : Fin 256) (r : Fin 32) :
    hid3 x0 x1 x2 x3 x4 x5 (ix3 i r k) = hidB x0 x1 x2 x3 x4 x5 i ⟨96 + r.val, by omega⟩ k := by
  unfold hid3
  rw [hid'_apply, ld_rB]
  simp only [k0_pay5, ld_rW, truncf_apply]
  exact summand x0 x1 x2 x3 x4 x5 i _ k _ _ (ld_rS3 _ r k) (fun hh => ld_rP3 x2 0 i r hh)

/-- h_sum plus the last chunk's sum: the sum over all 128 key rows. -/
theorem hsum_all (i : Fin 64) (k : Fin 256) :
    acc3 x0 x1 x2 x3 x4 x5 (ix2 i k) + ∑ r : Fin 32, hid3 x0 x1 x2 x3 x4 x5 (ix3 i r k) = ∑ j : Fin 128, hidB x0 x1 x2 x3 x4 x5 i j k := by
  rw [← Cert.Spec.sum_four_chunks (fun j => hidB x0 x1 x2 x3 x4 x5 i j k)]
  unfold acc3
  rw [acc_add]
  unfold acc2
  rw [acc_next]
  unfold acc1
  rw [acc_first, zero_splat, zero_add]
  exact congrArg₂ (· + ·) (congrArg₂ (· + ·) (congrArg₂ (· + ·)
    (Finset.sum_congr rfl fun r _ => chunk0 x0 x1 x2 x3 x4 x5 i k r) (Finset.sum_congr rfl fun r _ => chunk1 x0 x1 x2 x3 x4 x5 i k r))
    (Finset.sum_congr rfl fun r _ => chunk2 x0 x1 x2 x3 x4 x5 i k r)) (Finset.sum_congr rfl fun r _ => chunk3 x0 x1 x2 x3 x4 x5 i k r)

theorem ctxBlk_apply (u : Fin 1) (i : Fin 64) (h : Fin 256) :
    ctxBlk x0 x1 x2 x3 x4 x5 x6 x7 (ix3 u i h)
      = Cert.Spec.ctxRow (fun hh => x0 (ix3 (0 : Fin 1) i hh)) (fun j hh => x1 (ix3 (0 : Fin 1) j hh)) (fun j hh => x2 (ix4 (0 : Fin 1) i j hh))
          x3 x4 x5 x6 x7 h := by
  unfold ctxBlk
  rw [View.canon_unit_zero hz3, ctx_pay_apply, qRows_apply, Cert.Spec.ofBits_128, ld_rC]
  unfold Cert.Spec.ctxRow
  refine congrArg (x0 (ix3 (0 : Fin 1) i h) * ·) (congrArg (· + _) (Finset.sum_congr rfl fun k _ => ?_))
  rw [hsum_all]
  simp only [k0_pay6, ld_rV, truncf_apply]

end Ctx

end Cert.KernelIdeal.Hand

end
-- ==== Proof.KernelIdeal.Value.lean ====
/-
  The kernel's two result arrays after the run.

  The grid has 32 points t = (b, it). Point t writes back block (b, it, 0, 0) of the first result and block (b, it, 0) of
  the second. Each input block the body reads is a block of an argument array: the 64 query rows 64·it … 64·it+63 of
  batch b, the whole 128-row slab of batch b, the bin features of those query rows, and the five parameter arrays whole.
  So what point t writes back is block t of ONE whole-array function of the arguments (atom_pair, and the kernel's
  context), and since the 32 blocks tile each result array, the array ends holding that function.
-/
import proofs.«110807_j80393197846864_2_alg».proof.Proof.KernelIdeal.Run
import proofs.«110807_j80393197846864_2_alg».proof.Proof.KernelIdeal.Blocks
import proofs.«110807_j80393197846864_2_alg».proof.Proof.RowSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ## The printed index maps, decided over the grid -/

/-- Every input window the body reads moves with the first result's window, or stays at block zero; the result's block
    indices stay in their ranges. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 4) = win0_8.index t (0 : Fin 4) ∧ win0_2.index t (1 : Fin 4) = win0_8.index t (1 : Fin 4)
    ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_9.index t (0 : Fin 3) = win0_8.index t (0 : Fin 4) ∧ win0_9.index t (1 : Fin 3) = win0_8.index t (1 : Fin 4)
    ∧ win0_9.index t (2 : Fin 3) = 0
    ∧ win0_8.index t (0 : Fin 4) ≤ 15 ∧ win0_8.index t (1 : Fin 4) ≤ 1 :=
  (by decide +kernel : ∀ t : Fin grid0.N, _)

/-- Every block of either result is some point's. -/
theorem idx_onto8 : ∀ (q0 : Fin 16) (q1 : Fin 2), ∃ t : Fin cfg0.N, win0_8.index t = ![q0.val, q1.val, 0, 0] :=
  (by decide +kernel : ∀ (q0 : Fin 16) (q1 : Fin 2), ∃ t : Fin grid0.N, win0_8.index t = ![q0.val, q1.val, 0, 0])
theorem idx_onto9 : ∀ (q0 : Fin 16) (q1 : Fin 2), ∃ t : Fin cfg0.N, win0_9.index t = ![q0.val, q1.val, 0] :=
  (by decide +kernel : ∀ (q0 : Fin 16) (q1 : Fin 2), ∃ t : Fin grid0.N, win0_9.index t = ![q0.val, q1.val, 0])

/-- the batch of point t -/
def pb (t : Fin cfg0.N) : Fin 16 := ⟨win0_8.index t (0 : Fin 4), by have := idx_facts t; omega⟩
/-- the half (of the 128 query rows) of point t -/
def pit (t : Fin cfg0.N) : Fin 2 := ⟨win0_8.index t (1 : Fin 4), by have := idx_facts t; omega⟩
/-- query row i of point t's block, as a row of the array -/
def prow (t : Fin cfg0.N) (i : Fin 64) : Fin 128 := ⟨64 * (pit t).val + i.val, by have := (pit t).isLt; have := i.isLt; omega⟩

/-! ## The blocks the body reads, as entries of the argument arrays -/

section Blocks
variable (c : Dev nD) (t : Fin cfg0.N)

/-- Window 0: query row i of the block is row 64·it + i of batch b. -/
theorem blk0_apply (i : Fin 64) (h : Fin 256) :
    (iblk m c 0 t : Vec Ideal S1x64x256 .f32) (ix3 (0 : Fin 1) i h) = V m c main_arg0 (ix3 (pb t) (prow t i) h) := by
  show V m c main_arg0 (((cfg0.win 0).blk t).view.emb (ix3 (0 : Fin 1) i h)) = _
  refine congrArg (V m c main_arg0) (funext fun a => Fin.ext ?_)
  have e := idx_facts t
  match a with
  | ⟨0, _⟩ => show win0_0.index t (0 : Fin 3) * 1 + 1 * 0 = win0_8.index t (0 : Fin 4); omega
  | ⟨1, _⟩ => show win0_0.index t (1 : Fin 3) * 64 + 1 * i.val = 64 * win0_8.index t (1 : Fin 4) + i.val; omega
  | ⟨2, _⟩ => show win0_0.index t (2 : Fin 3) * 256 + 1 * h.val = h.val; omega

/-- Window 1: key row j of the slab is row j of batch b. -/
theorem blk1_apply (j : Fin 128) (h : Fin 256) :
    (iblk m c 1 t : Vec Ideal S1x128x256 .f32) (ix3 (0 : Fin 1) j h) = V m c main_arg0 (ix3 (pb t) j h) := by
  show V m c main_arg0 (((cfg0.win 1).blk t).view.emb (ix3 (0 : Fin 1) j h)) = _
  refine congrArg (V m c main_arg0) (funext fun a => Fin.ext ?_)
  have e := idx_facts t
  match a with
  | ⟨0, _⟩ => show win0_1.index t (0 : Fin 3) * 1 + 1 * 0 = win0_8.index t (0 : Fin 4); omega
  | ⟨1, _⟩ => show win0_1.index t (1 : Fin 3) * 128 + 1 * j.val = j.val; omega
  | ⟨2, _⟩ => show win0_1.index t (2 : Fin 3) * 256 + 1 * h.val = h.val; omega

/-- Window 2: the bin features of query row i against key row j. -/
theorem blk2_apply (i : Fin 64) (j : Fin 128) (h : Fin 256) :
    (iblk m c 2 t : Vec Ideal S1x64x128x256 .f32) (ix4 (0 : Fin 1) i j h) = V m c main_arg1 (ix4 (pb t) (prow t i) j h) := by
  show V m c main_arg1 (((cfg0.win 2).blk t).view.emb (ix4 (0 : Fin 1) i j h)) = _
  refine congrArg (V m c main_arg1) (funext fun a => Fin.ext ?_)
  have e := idx_facts t
  match a with
  | ⟨0, _⟩ => show win0_2.index t (0 : Fin 4) * 1 + 1 * 0 = win0_8.index t (0 : Fin 4); omega
  | ⟨1, _⟩ => show win0_2.index t (1 : Fin 4) * 64 + 1 * i.val = 64 * win0_8.index t (1 : Fin 4) + i.val; omega
  | ⟨2, _⟩ => show win0_2.index t (2 : Fin 4) * 128 + 1 * j.val = j.val; omega
  | ⟨3, _⟩ => show win0_2.index t (3 : Fin 4) * 256 + 1 * h.val = h.val; omega

/-- Windows 3 to 7: a parameter array's one block is the array. -/
theorem blk3_eq : (iblk m c 3 t : Vec Ideal S256x256 .f32) = V m c main_arg2 := by
  funext y
  show V m c main_arg2 (((cfg0.win 3).blk t).view.emb y) = _
  refine congrArg (V m c main_arg2) (funext fun a => Fin.ext ?_)
  have e := idx_facts t
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem blk4_eq : (iblk m c 4 t : Vec Ideal S256x256 .f32) = V m c main_arg3 := by
  funext y
  show V m c main_arg3 (((cfg0.win 4).blk t).view.emb y) = _
  refine congrArg (V m c main_arg3) (funext fun a => Fin.ext ?_)
  have e := idx_facts t
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem blk5_eq : (iblk m c 5 t : Vec Ideal S256 .f32) = V m c main_arg4 := by
  funext y
  show V m c main_arg4 (((cfg0.win 5).blk t).view.emb y) = _
  refine congrArg (V m c main_arg4) (funext fun a => Fin.ext ?_)
  have e := idx_facts t
  match a with
  | ⟨0, _⟩ => show win0_5.index t (0 : Fin 1) * 256 + 1 * (y 0).val = (y 0).val; omega
theorem blk6_eq : (iblk m c 6 t : Vec Ideal S256x1 .f32) = V m c main_arg5 := by
  funext y
  show V m c main_arg5 (((cfg0.win 6).blk t).view.emb y) = _
  refine congrArg (V m c main_arg5) (funext fun a => Fin.ext ?_)
  have e := idx_facts t
  match a with
  | ⟨0, _⟩ => show win0_6.index t (0 : Fin 2) * 256 + 1 * (y 0).val = (y 0).val; omega
  | ⟨1, _⟩ => show win0_6.index t (1 : Fin 2) * 1 + 1 * (y 1).val = (y 1).val; omega
theorem blk7_eq : (iblk m c 7 t : Vec Ideal S1 .f32) = V m c main_arg6 := by
  funext y
  show V m c main_arg6 (((cfg0.win 7).blk t).view.emb y) = _
  refine congrArg (V m c main_arg6) (funext fun a => Fin.ext ?_)
  have e := idx_facts t
  match a with
  | ⟨0, _⟩ => show win0_7.index t (0 : Fin 1) * 1 + 1 * (y 0).val = (y 0).val; omega

end Blocks

/-! ## What a point writes back -/

/-- The first result's block, at a point whose input blocks are blocks of the argument array X. -/
theorem pair_point (X : Cert.Spec.S3.Idx → EReal) (x0 : Vec Ideal S1x64x256 .f32) (x1 : Vec Ideal S1x128x256 .f32)
    (b : Fin 16) (r : Fin 128) (i : Fin 64)
    (h0 : ∀ h : Fin 256, x0 (ix3 (0 : Fin 1) i h) = X (ix3 b r h))
    (h1 : ∀ (j : Fin 128) (h : Fin 256), x1 (ix3 (0 : Fin 1) j h) = X (ix3 b j h))
    (u : Fin 1) (j : Fin 128) (h : Fin 256) :
    pairBlk x0 x1 (ix4 u i j h) = Cert.Spec.pairG X (ix4 b r j h) := by
  rw [pairBlk_apply, h0, h1]
  rfl

/-- The second result's block, at a point whose input blocks are blocks of the argument arrays. -/
theorem ctx_point (X : Cert.Spec.S3.Idx → EReal) (Bn : Cert.Spec.S4.Idx → EReal) (Wa Wb : Cert.Spec.SW.Idx → EReal)
    (bb : Cert.Spec.SB.Idx → EReal) (ws : Cert.Spec.SV.Idx → EReal) (bs : Cert.Spec.SC.Idx → EReal)
    (x0 : Vec Ideal S1x64x256 .f32) (x1 : Vec Ideal S1x128x256 .f32) (x2 : Vec Ideal S1x64x128x256 .f32)
    (b : Fin 16) (r : Fin 128) (i : Fin 64)
    (h0 : ∀ h : Fin 256, x0 (ix3 (0 : Fin 1) i h) = X (ix3 b r h))
    (h1 : ∀ (j : Fin 128) (h : Fin 256), x1 (ix3 (0 : Fin 1) j h) = X (ix3 b j h))
    (h2 : ∀ (j : Fin 128) (h : Fin 256), x2 (ix4 (0 : Fin 1) i j h) = Bn (ix4 b r j h))
    (u : Fin 1) (h : Fin 256) :
    ctxBlk x0 x1 x2 Wa Wb bb ws bs (ix3 u i h) = Cert.Spec.ctxK X Bn Wa Wb bb ws bs b r h := by
  rw [ctxBlk_apply, Cert.Spec.ctxK_eq_row]
  have e0 : (fun hh => x0 (ix3 (0 : Fin 1) i hh)) = fun hh => X (ix3 b r hh) := funext h0
  have e1 : (fun j hh => x1 (ix3 (0 : Fin 1) j hh)) = fun j hh => X (ix3 b j hh) := funext fun j => funext (h1 j)
  have e2 : (fun j hh => x2 (ix4 (0 : Fin 1) i j hh)) = fun j hh => Bn (ix4 b r j hh) := funext fun j => funext (h2 j)
  rw [e0, e1, e2]

section Flushed
variable (c : Dev nD) (t : Fin cfg0.N)

/-- WHAT POINT t WRITES BACK to the first result is block t of atom_pair of the first argument. -/
theorem flushed8_eq :
    (dats (F := Ideal) m 0 c).flushed 8 t = ((cfg0.win 8).blk t).view.read (Elt Ideal) (Cert.Spec.pairG (V m c main_arg0)) := by
  show (cfg0.win 8).cut (grid0.coords t) ((dats m 0 c).after 8 t) = _
  rw [after0_8]
  funext y
  have hy0 : (y 0).val < 1 := (y 0).isLt
  have hy1 : (y 1).val < 64 := (y 1).isLt
  have hy2 : (y 2).val < 128 := (y 2).isLt
  have hy3 : (y 3).val < 256 := (y 3).isLt
  have hx : (cfg0.win 8).xinj (grid0.coords t) y
      = ix4 (⟨(y 0).val, hy0⟩ : Fin 1) (⟨(y 1).val, hy1⟩ : Fin 64) (⟨(y 2).val, hy2⟩ : Fin 128) (⟨(y 3).val, hy3⟩ : Fin 256) := by
    funext a; match a with | ⟨0, _⟩ => rfl | ⟨1, _⟩ => rfl | ⟨2, _⟩ => rfl | ⟨3, _⟩ => rfl
  have he : ((cfg0.win 8).blk t).view.emb y
      = ix4 (pb t) (prow t ⟨(y 1).val, hy1⟩) (⟨(y 2).val, hy2⟩ : Fin 128) (⟨(y 3).val, hy3⟩ : Fin 256) := by
    funext a; apply Fin.ext
    have e := idx_facts t
    match a with
    | ⟨0, _⟩ => show win0_8.index t (0 : Fin 4) * 1 + 1 * (y 0).val = win0_8.index t (0 : Fin 4); omega
    | ⟨1, _⟩ => show win0_8.index t (1 : Fin 4) * 64 + 1 * (y 1).val = 64 * win0_8.index t (1 : Fin 4) + (y 1).val; omega
    | ⟨2, _⟩ => show win0_8.index t (2 : Fin 4) * 128 + 1 * (y 2).val = (y 2).val; omega
    | ⟨3, _⟩ => show win0_8.index t (3 : Fin 4) * 256 + 1 * (y 3).val = (y 3).val; omega
  show pairBlk (iblk m c 0 t) (iblk m c 1 t) ((cfg0.win 8).xinj (grid0.coords t) y)
      = Cert.Spec.pairG (V m c main_arg0) (((cfg0.win 8).blk t).view.emb y)
  refine (congrArg (pairBlk (iblk m c 0 t) (iblk m c 1 t)) hx).trans ?_
  refine Eq.trans ?_ (congrArg (Cert.Spec.pairG (V m c main_arg0)) he).symm
  exact pair_point (V m c main_arg0) (iblk m c 0 t) (iblk m c 1 t) (pb t) (prow t ⟨(y 1).val, hy1⟩) ⟨(y 1).val, hy1⟩
    (fun h => blk0_apply m c t _ h) (fun j h => blk1_apply m c t j h) _ _ _

/-- WHAT POINT t WRITES BACK to the second result is block t of the kernel's context of the arguments. -/
theorem flushed9_eq :
    (dats (F := Ideal) m 0 c).flushed 9 t = ((cfg0.win 9).blk t).view.read (Elt Ideal)
      (fun i => Cert.Spec.ctxK (V m c main_arg0) (V m c main_arg1) (V m c main_arg2) (V m c main_arg3) (V m c main_arg4)
        (V m c main_arg5) (V m c main_arg6) (i 0) (i 1) (i 2)) := by
  show (cfg0.win 9).cut (grid0.coords t) ((dats m 0 c).after 9 t) = _
  rw [after0_9]
  funext y
  have hy0 : (y 0).val < 1 := (y 0).isLt
  have hy1 : (y 1).val < 64 := (y 1).isLt
  have hy2 : (y 2).val < 256 := (y 2).isLt
  have hx : (cfg0.win 9).xinj (grid0.coords t) y
      = ix3 (⟨(y 0).val, hy0⟩ : Fin 1) (⟨(y 1).val, hy1⟩ : Fin 64) (⟨(y 2).val, hy2⟩ : Fin 256) := by
    funext a; match a with | ⟨0, _⟩ => rfl | ⟨1, _⟩ => rfl | ⟨2, _⟩ => rfl
  have he : ((cfg0.win 9).blk t).view.emb y = ix3 (pb t) (prow t ⟨(y 1).val, hy1⟩) (⟨(y 2).val, hy2⟩ : Fin 256) := by
    funext a; apply Fin.ext
    have e := idx_facts t
    match a with
    | ⟨0, _⟩ => show win0_9.index t (0 : Fin 3) * 1 + 1 * (y 0).val = win0_8.index t (0 : Fin 4); omega
    | ⟨1, _⟩ => show win0_9.index t (1 : Fin 3) * 64 + 1 * (y 1).val = 64 * win0_8.index t (1 : Fin 4) + (y 1).val; omega
    | ⟨2, _⟩ => show win0_9.index t (2 : Fin 3) * 256 + 1 * (y 2).val = (y 2).val; omega
  show ctxBlk (iblk m c 0 t) (iblk m c 1 t) (iblk m c 2 t) (iblk m c 3 t) (iblk m c 4 t) (iblk m c 5 t) (iblk m c 6 t) (iblk m c 7 t)
        ((cfg0.win 9).xinj (grid0.coords t) y)
      = (fun i : S16x128x256.Idx => Cert.Spec.ctxK (V m c main_arg0) (V m c main_arg1) (V m c main_arg2) (V m c main_arg3)
          (V m c main_arg4) (V m c main_arg5) (V m c main_arg6) (i 0) (i 1) (i 2)) (((cfg0.win 9).blk t).view.emb y)
  rw [blk3_eq, blk4_eq, blk5_eq, blk6_eq, blk7_eq, hx, he]
  exact ctx_point (V m c main_arg0) (V m c main_arg1) (V m c main_arg2) (V m c main_arg3) (V m c main_arg4) (V m c main_arg5)
    (V m c main_arg6) (iblk m c 0 t) (iblk m c 1 t) (iblk m c 2 t) (pb t) (prow t ⟨(y 1).val, hy1⟩) ⟨(y 1).val, hy1⟩
    (fun h => blk0_apply m c t _ h) (fun j h => blk1_apply m c t j h) (fun j h => blk2_apply m c t _ j h) _ _

end Flushed

/-! ## The blocks tile the result arrays -/

/-- An index of the first result is in point t's block iff each coordinate is in the block's range on its axis. -/
theorem mem_blk8 (t : Fin cfg0.N) (i : S16x128x128x256.Idx) :
    i ∈ ((cfg0.win 8).blk t).view.set ↔ ∀ a : Fin 4, win0_8.index t a * S1x64x128x256.size a ≤ (i a).val
      ∧ (i a).val < win0_8.index t a * S1x64x128x256.size a + S1x64x128x256.size a := by
  show i ∈ ((View.whole main_v0_0).slice (win0_8.rect t)).set ↔ _
  rw [View.set_slice_whole, Rect.mem_set_unit]
  exact Iff.rfl

theorem mem_blk9 (t : Fin cfg0.N) (i : S16x128x256.Idx) :
    i ∈ ((cfg0.win 9).blk t).view.set ↔ ∀ a : Fin 3, win0_9.index t a * S1x64x256.size a ≤ (i a).val
      ∧ (i a).val < win0_9.index t a * S1x64x256.size a + S1x64x256.size a := by
  show i ∈ ((View.whole main_v0_1).slice (win0_9.rect t)).set ↔ _
  rw [View.set_slice_whole, Rect.mem_set_unit]
  exact Iff.rfl

/-- Every index of the first result is in the block of the point (b, n / 64). -/
theorem cover8 (i : S16x128x128x256.Idx) :
    ∃ t : Fin cfg0.N, (cfg0.win 8).flush t = true ∧ i ∈ ((cfg0.win 8).blk t).view.set := by
  have hi0 : (i 0).val < 16 := (i 0).isLt
  have hi1 : (i 1).val < 128 := (i 1).isLt
  have hi2 : (i 2).val < 128 := (i 2).isLt
  have hi3 : (i 3).val < 256 := (i 3).isLt
  obtain ⟨t, ht⟩ := idx_onto8 ⟨(i 0).val, hi0⟩ ⟨(i 1).val / 64, by omega⟩
  have q0 : win0_8.index t (0 : Fin 4) = (i 0).val := congrFun ht 0
  have q1 : win0_8.index t (1 : Fin 4) = (i 1).val / 64 := congrFun ht 1
  have q2 : win0_8.index t (2 : Fin 4) = 0 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 64 ≤ (i 1).val ∧ (i 1).val < win0_8.index t (1 : Fin 4) * 64 + 64; omega
  | ⟨2, _⟩ => show win0_8.index t (2 : Fin 4) * 128 ≤ (i 2).val ∧ (i 2).val < win0_8.index t (2 : Fin 4) * 128 + 128; omega
  | ⟨3, _⟩ => show win0_8.index t (3 : Fin 4) * 256 ≤ (i 3).val ∧ (i 3).val < win0_8.index t (3 : Fin 4) * 256 + 256; omega

theorem cover9 (i : S16x128x256.Idx) :
    ∃ t : Fin cfg0.N, (cfg0.win 9).flush t = true ∧ i ∈ ((cfg0.win 9).blk t).view.set := by
  have hi0 : (i 0).val < 16 := (i 0).isLt
  have hi1 : (i 1).val < 128 := (i 1).isLt
  have hi2 : (i 2).val < 256 := (i 2).isLt
  obtain ⟨t, ht⟩ := idx_onto9 ⟨(i 0).val, hi0⟩ ⟨(i 1).val / 64, by omega⟩
  have q0 : win0_9.index t (0 : Fin 3) = (i 0).val := congrFun ht 0
  have q1 : win0_9.index t (1 : Fin 3) = (i 1).val / 64 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 64 ≤ (i 1).val ∧ (i 1).val < win0_9.index t (1 : Fin 3) * 64 + 64; omega
  | ⟨2, _⟩ => show win0_9.index t (2 : Fin 3) * 256 ≤ (i 2).val ∧ (i 2).val < win0_9.index t (2 : Fin 3) * 256 + 256; omega

/-! ## The arrays after the run -/

theorem final_pair (c : Dev nD) :
    (dats (F := Ideal) m 0 c).arrAt 8 cfg0.N = Cert.Spec.pairG (m ((c : Thread nD τ).loc main_arg0)) :=
  (dats (F := Ideal) m 0 c).arrAt_eq_of_cover 8 (Cert.Spec.pairG (V m c main_arg0)) (fun t _ => flushed8_eq m c t) cover8

theorem final_ctx (c : Dev nD) :
    (dats (F := Ideal) m 0 c).arrAt 9 cfg0.N = fun i => Cert.Spec.ctxK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) :=
  (dats (F := Ideal) m 0 c).arrAt_eq_of_cover 9 _ (fun t _ => flushed9_eq m c t) cover9

end Cert.KernelIdeal.Hand

end
-- ==== Proof.CtxLaw.lean ====
/-
  The kernel's context equals the reference's when every input is finite.

  With finite inputs every xw and binw is a finite sum of products of reals, hence a real; so is the hidden
  activation (a maximum of a sum of reals with zero). The law of Spec.lean, which moves the sum over j across the
  product with the score weights and collects the 128 copies of the score bias, then applies.
-/
import proofs.«110807_j80393197846864_2_alg».proof.Proof.Spec

noncomputable section

open scoped BigOperators

namespace Cert.Spec

open Idealize.ShloMosaic Idealize.ShloMosaic.ValueIdx Cert.LibFinite

section
variable {X : S3.Idx → EReal} {Bn : S4.Idx → EReal} {Wa Wb : SW.Idx → EReal} {bb : SB.Idx → EReal}

/-- A finite sum of products of reals. -/
theorem isReal_xw (hX : IsFin X) (hWa : IsFin Wa) (b : Fin 16) (n : Fin 128) (k : Fin 256) : IsReal (xw X Wa b n k) :=
  IsReal.sum _ _ fun _ _ => (hX _).mul (hWa _)

theorem isReal_binw (hBn : IsFin Bn) (hWb : IsFin Wb) (b : Fin 16) (i j : Fin 128) (k : Fin 256) :
    IsReal (binw Bn Wb b i j k) :=
  IsReal.sum _ _ fun _ _ => (hBn _).mul (hWb _)

theorem isReal_hidR (hX : IsFin X) (hBn : IsFin Bn) (hWa : IsFin Wa) (hWb : IsFin Wb) (hbb : IsFin bb)
    (b : Fin 16) (i j : Fin 128) (k : Fin 256) : IsReal (hidR X Bn Wa Wb bb b i j k) :=
  ((((isReal_xw hX hWa b i k).add (isReal_xw hX hWa b j k)).add (isReal_binw hBn hWb b i j k)).add (hbb _)).max isReal_zero

end

theorem ctxK_eq_ctxR (X : S3.Idx → EReal) (Bn : S4.Idx → EReal) (Wa Wb : SW.Idx → EReal) (bb : SB.Idx → EReal)
    (ws : SV.Idx → EReal) (bs : SC.Idx → EReal)
    (hX : Cert.LibFinite.IsFin X) (hBn : Cert.LibFinite.IsFin Bn) (hWa : Cert.LibFinite.IsFin Wa)
    (hWb : Cert.LibFinite.IsFin Wb) (hbb : Cert.LibFinite.IsFin bb) (hws : Cert.LibFinite.IsFin ws)
    (hbs : Cert.LibFinite.IsFin bs)
    (b : Fin 16) (i : Fin 128) (h : Fin 256) :
    ctxK X Bn Wa Wb bb ws bs b i h = ctxR X Bn Wa Wb bb ws bs b i h := by
  unfold ctxK ctxR
  simp only [hidK_eq]
  exact ctx_law (fun j k => hidR X Bn Wa Wb bb b i j k) (fun k => ws (ix2 k 0)) (bs (ix1 0)) (X (ix3 b i h)) 128
    (by simp) (fun j k => isReal_hidR hX hBn hWa hWb hbb b i j k) (fun k => hws _) (hbs _) (hX _)

end Cert.Spec

end
-- ==== Proof.Finite.lean ====
/-
  The precondition: every input array is finite.

  The printed predicate is a conjunction, one conjunct per input array, each saying that every entry x of the
  array has |x| below the pattern of +infinity. That pattern denotes the top element of the extended reals, and
  |x| = max x (-x) is below top exactly when x is neither bottom nor top, that is, when x is a real.
-/
import proofs.«110807_j80393197846864_2_alg».proof.Pre_finite_inputs
import proofs.«110807_j80393197846864_2_alg».proof.Proof.LibFinite
import Idealize.ShloMosaic.Lib.ReduceAll
import Idealize.ShloMosaic.Lib.ValueIdx
import Idealize.ShloMosaic.Lib.Affine
import Idealize.ShloMosaic.PureOps.Ideal
import Idealize.ShloMosaic.PureOps.Ideal.Laws

namespace Cert.Finite

open Idealize.ShloMosaic Cert.LibFinite Cert.Pre_finite_inputs

/-- The scalar shape has one index. -/
instance subsingleton_scalar_idx : Subsingleton S_.Idx := ⟨fun a b => funext fun d => d.elim0⟩

/-- The pattern of +infinity denotes the top element. -/
theorem ofBits_inf : Ideal.ofBits .f32 0x7F800000#32 = (⊤ : EReal) := by
  simp [Ideal.ofBits, Ideal.ieee]

/-- An extended real whose absolute value compares below +infinity is a real. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    change BitVec.ofBool (decide (max x (-x) < ⊤)) = 1#1 at h
    by_contra hn
    rw [decide_eq_false hn] at h
    exact absurd h (by decide)
  induction x using EReal.rec with
  | bot => simp at hlt
  | coe r => exact ⟨r, rfl⟩
  | top => simp at hlt

/-- One array: if the conjunction over all entries of "|x| < +infinity" holds, every entry is a real. -/
theorem isFin_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
          init hr hu ValueIdx.ix0 = 1#1) :
    IsFin x := by
  intro i
  have hi := Host.reduce_andi_all _ init hr hu ValueIdx.ix0 e i
  exact isReal_of_abs_lt_inf (x i) hi

theorem finite_of_pre [Facts] (x0 : FVec Ideal Cert.Pre_finite_inputs.S16x128x256 .f32)
    (x1 : FVec Ideal Cert.Pre_finite_inputs.S16x128x128x256 .f32) (x2 x3 : FVec Ideal Cert.Pre_finite_inputs.S256x256 .f32)
    (x4 : FVec Ideal Cert.Pre_finite_inputs.S256 .f32) (x5 : FVec Ideal Cert.Pre_finite_inputs.S256x1 .f32)
    (x6 : FVec Ideal Cert.Pre_finite_inputs.S1 .f32)
    (h : Cert.Pre_finite_inputs.fn (F := Ideal) x0 x1 x2 x3 x4 x5 x6 = fun _ => 1#1) :
    Cert.LibFinite.IsFin x0 ∧ Cert.LibFinite.IsFin x1 ∧ Cert.LibFinite.IsFin x2 ∧ Cert.LibFinite.IsFin x3 ∧
      Cert.LibFinite.IsFin x4 ∧ Cert.LibFinite.IsFin x5 ∧ Cert.LibFinite.IsFin x6 := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isFin_of_all x0 _ _ _ _ e0, isFin_of_all x1 _ _ _ _ e1, isFin_of_all x2 _ _ _ _ e2, isFin_of_all x3 _ _ _ _ e3,
    isFin_of_all x4 _ _ _ _ e4, isFin_of_all x5 _ _ _ _ e5, isFin_of_all x6 _ _ _ _ e6⟩

end Cert.Finite
-- ==== Proof.KernelIdeal.Final.lean ====
/-
  The idealized kernel's run with both results named.

  After the run the second result array holds the reference's context array `Cert.Spec.ctxG` of the launch contents and
  the first holds `Cert.Spec.pairG` of `inputs`: each result array is, block by block, what the grid points wrote
  (`final_ctx`, `final_pair`), the kernel's form of the context equals the reference's on finite inputs
  (`Cert.Spec.ctxK_eq_ctxR`), and the precondition says the inputs are finite (`Cert.Finite.finite_of_pre`).
-/
import proofs.«110807_j80393197846864_2_alg».proof.Proof.KernelIdeal.Value
import proofs.«110807_j80393197846864_2_alg».proof.Proof.CtxLaw
import proofs.«110807_j80393197846864_2_alg».proof.Proof.Finite
import proofs.«110807_j80393197846864_2_alg».proof.Proof.Gen.Pre_finite_inputs

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem run_value (m : (ℓ : Loc nD τ sig) → Buf (Elt Ideal) ℓ) (ρ : Dev nD → PrngReg)
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    θ_run defs (onTc (τ := τ) (main (F := Ideal))) ⟨m, fun _ => 0, ρ⟩ (fun r => ∀ c : Dev nD,
      r.2.mem ((c.tc : Thread nD τ).loc main_v0_1)
          = Cert.Spec.ctxG (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_v0_0) = Cert.Spec.pairG (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main (F := Ideal) m ρ)
  obtain ⟨f0, f1, f2, f3, f4, f5, f6⟩ := Cert.Finite.finite_of_pre _ _ _ _ _ _ _ (hpre c)
  refine ⟨(h c 9).trans ((final_ctx m c).trans (funext fun i => ?_)), (h c 8).trans (final_pair m c),
    (h c 0).trans (final_in m c 0 rfl), (h c 2).trans (final_in m c 2 rfl), (h c 3).trans (final_in m c 3 rfl),
    (h c 4).trans (final_in m c 4 rfl), (h c 5).trans (final_in m c 5 rfl), (h c 6).trans (final_in m c 6 rfl),
    (h c 7).trans (final_in m c 7 rfl)⟩
  exact Cert.Spec.ctxK_eq_ctxR _ _ _ _ _ _ _ f0 f1 f2 f3 f4 f5 f6 (i 0) (i 1) (i 2)

end Cert.KernelIdeal.Hand

end
-- ==== Proof.RefValue.lean ====
/-
  The reference program's two results, read at an index, are the arrays of the specification.

  Every operation of the reference is read at an index whose coordinates are literal Fin values: a broadcast
  reads its operand at a re-indexed point, a contraction is a sum over its contracted coordinate, the relu is a
  maximum against zero, and the final reduction is its initial value (zero) plus a sum over the reduced
  coordinate. Composing these readings stage by stage gives xw, binw, hidR, the score and finally ctxR.
-/
import proofs.«110807_j80393197846864_2_alg».proof.Proof.Gen.ReferenceIdeal.Read
import proofs.«110807_j80393197846864_2_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-! ## The re-indexings at literal coordinates -/

section Idx
variable (b : Fin 16) (i j : Fin 128) (h k : Fin 256)

theorem e_v0_v2 : idx_main_v0 (idx_main_v2 (ix4 b i j h)) = ix3 b i h := by
  funext a; match a with | ⟨0, _⟩ => rfl | ⟨1, _⟩ => rfl | ⟨2, _⟩ => rfl
theorem e_v1_v3 : idx_main_v1 (idx_main_v3 (ix4 b i j h)) = ix3 b j h := by
  funext a; match a with | ⟨0, _⟩ => rfl | ⟨1, _⟩ => rfl | ⟨2, _⟩ => rfl
theorem e_l5 : lidx_main_v5 (ix3 b i k) h = ix3 b i h := by
  funext a; match a with | ⟨0, _⟩ => rfl | ⟨1, _⟩ => rfl | ⟨2, _⟩ => rfl
theorem e_r5 : ridx_main_v5 (ix3 b i k) h = ix2 h k := by
  funext a; match a with | ⟨0, _⟩ => rfl | ⟨1, _⟩ => rfl
theorem e_v6_v8 : idx_main_v6 (idx_main_v8 (ix4 b i j k)) = ix3 b i k := by
  funext a; match a with | ⟨0, _⟩ => rfl | ⟨1, _⟩ => rfl | ⟨2, _⟩ => rfl
theorem e_v7_v9 : idx_main_v7 (idx_main_v9 (ix4 b i j k)) = ix3 b j k := by
  funext a; match a with | ⟨0, _⟩ => rfl | ⟨1, _⟩ => rfl | ⟨2, _⟩ => rfl
theorem e_l11 : lidx_main_v11 (ix4 b i j k) h = ix4 b i j h := by
  funext a; match a with | ⟨0, _⟩ => rfl | ⟨1, _⟩ => rfl | ⟨2, _⟩ => rfl | ⟨3, _⟩ => rfl
theorem e_r11 : ridx_main_v11 (ix4 b i j k) h = ix2 h k := by
  funext a; match a with | ⟨0, _⟩ => rfl | ⟨1, _⟩ => rfl
theorem e_v13_v14 : idx_main_v13 (idx_main_v14 (ix4 b i j k)) = ix1 k := by
  funext a; match a with | ⟨0, _⟩ => rfl
theorem e_l17 (z : Fin 1) : lidx_main_v17 (ix4 b i j z) k = ix4 b i j k := by
  funext a; match a with | ⟨0, _⟩ => rfl | ⟨1, _⟩ => rfl | ⟨2, _⟩ => rfl | ⟨3, _⟩ => rfl
theorem e_r17 (z : Fin 1) : ridx_main_v17 (ix4 b i j z) k = ix2 k z := by
  funext a; match a with | ⟨0, _⟩ => rfl | ⟨1, _⟩ => rfl
theorem e_v18_v19 (z : Fin 1) : idx_main_v18 (idx_main_v19 (ix4 b i j z)) = ix1 (0 : Fin 1) := by
  funext a; match a with | ⟨0, _⟩ => rfl
theorem e_v22 : idx_main_v22 (ix4 b i j h) = ix4 b i j (0 : Fin 1) := by
  funext a; match a with | ⟨0, _⟩ => rfl | ⟨1, _⟩ => rfl | ⟨2, _⟩ => rfl | ⟨3, _⟩ => rfl
theorem e_v21_v23 : idx_main_v21 (idx_main_v23 (ix4 b i j h)) = ix3 b i h := by
  funext a; match a with | ⟨0, _⟩ => rfl | ⟨1, _⟩ => rfl | ⟨2, _⟩ => rfl
theorem e_v25 : idx_main_v25 (ix3 b i h) j = ix4 b i j h := by
  funext a; match a with | ⟨0, _⟩ => rfl | ⟨1, _⟩ => rfl | ⟨2, _⟩ => rfl | ⟨3, _⟩ => rfl

end Idx

/-! ## atom_pair -/

theorem pair_eq (x0 : (⟨S16x128x256, .f32⟩ : BufTy).Contents (Elt Ideal)) :
    Cert.ReferenceIdeal.Read.val_main_v4 (F := Ideal) x0 = Cert.Spec.pairG x0 := by
  funext i
  obtain ⟨b, n, m, h, rfl⟩ : ∃ (b : Fin 16) (n m : Fin 128) (h : Fin 256), i = ix4 b n m h :=
    ⟨i 0, i 1, i 2, i 3, eq_ix4 i⟩
  rw [val_main_v4_apply, val_main_v2_apply, val_main_v0_apply, val_main_v3_apply, val_main_v1_apply, e_v0_v2, e_v1_v3]
  rfl

/-! ## The context, stage by stage -/

section Stages
variable (x0 : (⟨S16x128x256, .f32⟩ : BufTy).Contents (Elt Ideal)) (x1 : (⟨S16x128x128x256, .f32⟩ : BufTy).Contents (Elt Ideal))
  (x2 x3 : (⟨S256x256, .f32⟩ : BufTy).Contents (Elt Ideal)) (x4 : (⟨S256, .f32⟩ : BufTy).Contents (Elt Ideal))
  (x5 : (⟨S256x1, .f32⟩ : BufTy).Contents (Elt Ideal)) (x6 : (⟨S1, .f32⟩ : BufTy).Contents (Elt Ideal))
  (b : Fin 16) (i j : Fin 128) (h k : Fin 256)

/-- The first contraction is xw. -/
theorem v5_at : val_main_v5 (F := Ideal) x0 x2 (ix3 b i k) = xw x0 x2 b i k := by
  rw [val_main_v5_apply]
  unfold xw
  refine Finset.sum_congr rfl fun h _ => ?_
  rw [e_l5, e_r5]

/-- The second contraction is binw. -/
theorem v11_at : val_main_v11 (F := Ideal) x1 x3 (ix4 b i j k) = binw x1 x3 b i j k := by
  rw [val_main_v11_apply]
  unfold binw
  refine Finset.sum_congr rfl fun h _ => ?_
  rw [e_l11, e_r11]

/-- The hidden activation. -/
theorem v16_at : val_main_v16 (F := Ideal) x0 x1 x2 x3 x4 (ix4 b i j k) = hidR x0 x1 x2 x3 x4 b i j k := by
  rw [val_main_v16_apply, val_main_v15_apply, val_main_v12_apply, val_main_v10_apply, val_main_v8_apply, val_main_v6_apply,
    val_main_v9_apply, val_main_v7_apply, val_main_v14_apply, val_main_v13_apply, val_main_call0_v0_apply,
    val_main_call0_cst_apply, e_v6_v8, e_v7_v9, e_v13_v14, v5_at, v5_at, v11_at]
  unfold hidR
  show max (((xw x0 x2 b i k + xw x0 x2 b j k) + binw x1 x3 b i j k) + x4 (ix1 k)) (Ideal.ofBits .f32 0x00000000#32) = _
  rw [Ideal.ofBits_zero_f32]

/-- The score before it is broadcast. -/
theorem v20_at : val_main_v20 (F := Ideal) x0 x1 x2 x3 x4 x5 x6 (ix4 b i j (0 : Fin 1))
    = (∑ k : Fin 256, hidR x0 x1 x2 x3 x4 b i j k * x5 (ix2 k 0)) + x6 (ix1 0) := by
  rw [val_main_v20_apply, val_main_v17_apply, val_main_v19_apply, val_main_v18_apply, e_v18_v19]
  refine congrArg (· + x6 (ix1 0)) (Finset.sum_congr rfl fun k _ => ?_)
  rw [e_l17, e_r17, v16_at]

/-- The product under the last sum. -/
theorem v24_at : val_main_v24 (F := Ideal) x0 x1 x2 x3 x4 x5 x6 (ix4 b i j h)
    = ((∑ k : Fin 256, hidR x0 x1 x2 x3 x4 b i j k * x5 (ix2 k 0)) + x6 (ix1 0)) * x0 (ix3 b i h) := by
  rw [val_main_v24_apply, val_main_v22_apply, val_main_v23_apply, val_main_v21_apply, e_v22, e_v21_v23, v20_at]
  rfl

end Stages

theorem ctx_eq (x0 : (⟨S16x128x256, .f32⟩ : BufTy).Contents (Elt Ideal)) (x1 : (⟨S16x128x128x256, .f32⟩ : BufTy).Contents (Elt Ideal))
    (x2 x3 : (⟨S256x256, .f32⟩ : BufTy).Contents (Elt Ideal)) (x4 : (⟨S256, .f32⟩ : BufTy).Contents (Elt Ideal))
    (x5 : (⟨S256x1, .f32⟩ : BufTy).Contents (Elt Ideal)) (x6 : (⟨S1, .f32⟩ : BufTy).Contents (Elt Ideal)) :
    Cert.ReferenceIdeal.Read.val_main_v25 (F := Ideal) x0 x1 x2 x3 x4 x5 x6 = Cert.Spec.ctxG x0 x1 x2 x3 x4 x5 x6 := by
  funext t
  obtain ⟨b, i, h, rfl⟩ : ∃ (b : Fin 16) (i : Fin 128) (h : Fin 256), t = ix3 b i h := ⟨t 0, t 1, t 2, eq_ix3 t⟩
  rw [val_main_v25_apply, val_main_cst_apply]
  show Ideal.ofBits .f32 0x00000000#32 + _ = ctxR x0 x1 x2 x3 x4 x5 x6 b i h
  rw [Ideal.ofBits_zero_f32]
  unfold ctxR
  refine congrArg (0 + ·) (Finset.sum_congr rfl fun j _ => ?_)
  rw [e_v25, v24_at]

end Cert.ReferenceIdeal.RefValue

end
-- ==== Proof.lean ====
/-
  The certificate's five claims.

  The kernel computes, per batch b and query row i,
    atom_pair[b,i,j,:] = X[b,i,:] + X[b,j,:]   and   context[b,i,:] = X[b,i,:] * (h_sum[b,i,:] · w_score + 128 · b_score),
  where h_sum[b,i,:] = Σ_j relu(xw[b,i,:] + xw[b,j,:] + (bin[b,i,j,:] · W_bin + b_bin)) and xw = X · W_atom; the reference
  computes the same pair array and Σ_j (relu(…)[b,i,j,:] · w_score + b_score) * X[b,i,:]. On finite inputs every
  quantity is a real number, the sum over j moves inside the product with w_score and the 128 copies of b_score
  collect, so the two contexts agree; the pair arrays agree term by term.
  The two kernel frames come from one launch proof each (the same text at the two instances), the reference's from
  its generated run, and no operation was rewritten by the idealization, so there is nothing to preserve.
-/
import proofs.«110807_j80393197846864_2_alg».proof.Defs
import proofs.«110807_j80393197846864_2_alg».proof.Proof.Gen.Kernel
import proofs.«110807_j80393197846864_2_alg».proof.Proof.Gen.KernelIdeal
import proofs.«110807_j80393197846864_2_alg».proof.Proof.Gen.ReferenceIdeal
import proofs.«110807_j80393197846864_2_alg».proof.Proof.Gen.Pre_finite_inputs
import proofs.«110807_j80393197846864_2_alg».proof.Proof.Gen.ReferenceIdeal.Run
import proofs.«110807_j80393197846864_2_alg».proof.Proof.Gen.ReferenceIdeal.Read
import proofs.«110807_j80393197846864_2_alg».proof.Proof.Kernel.Run
import proofs.«110807_j80393197846864_2_alg».proof.Proof.KernelIdeal.Run
import proofs.«110807_j80393197846864_2_alg».proof.Proof.KernelIdeal.Final
import proofs.«110807_j80393197846864_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the context array `Cert.Spec.ctxG` and the pair array `Cert.Spec.pairG` of the launch
    contents, which agree by hypothesis; the arguments are unchanged. -/
theorem algebraic : Cert.algebraic_KernelIdeal_ReferenceIdeal := by
  intro m ρ m' ρ' hpre hagree
  refine ⟨_, _, Cert.KernelIdeal.Hand.run_value m ρ hpre, ?_⟩
  refine (θ_run Cert.ReferenceIdeal.defs _ _).mono (fun r h c => ⟨?_, ?_, (h c).2.2⟩)
    (Cert.ReferenceIdeal.Value.run (F := Ideal) m' ρ')
  · refine (h c).1.trans ?_
    rw [Cert.ReferenceIdeal.Read.val_main_v25_eq, Cert.ReferenceIdeal.RefValue.ctx_eq, (hagree c).1, (hagree c).2.1, (hagree c).2.2.1,
      (hagree c).2.2.2.1, (hagree c).2.2.2.2.1, (hagree c).2.2.2.2.2.1, (hagree c).2.2.2.2.2.2]
  · refine (h c).2.1.trans ?_
    rw [Cert.ReferenceIdeal.Read.val_main_v4_eq, Cert.ReferenceIdeal.RefValue.pair_eq, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
